-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v11)) (v1 : (c : Dev Cert.KernelIdeal.nD) → Buf (Elt Ideal) ((c.tc : Thread Cert.KernelIdeal.nD Cert.KernelIdeal.τ).loc Cert.KernelIdeal.main_v10_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_v20) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x4x1024 : Shape := ⟨3, ![2048, 4, 1024]⟩
abbrev S3072x1024 : Shape := ⟨2, ![3072, 1024]⟩
abbrev S1024x1024 : Shape := ⟨2, ![1024, 1024]⟩
abbrev S_ : Shape := ⟨0, ![]⟩

class Facts : Prop where
  bcast_S_S2048x4x1024 : S_.BroadcastsInDim S2048x4x1024 (![] : Fin 0 → Fin S2048x4x1024.rank)
  reducesTo_S2048x4x1024_S_d0_1_2 : S2048x4x1024.ReducesTo [0, 1, 2] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg4 : FVec F S1024x1024 .f32) (main_v13 : IVec S_ 1) (main_v16 : IVec S3072x1024 1) : IVec S_ 1 :=
  let main_c_5 : IVec S_ 1 := constantI S_ 1 1#1
  let main_v17 : IVec S_ 1 := (fun x v => Host.reduce IntOp.andi x v reducesTo_S3072x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  main_v23

def fn {F : FTy → Type} [FloatOps F] (main_arg0 : FVec F S2048x4x1024 .f32) (main_arg1 : FVec F S2048x4x1024 .f32) (main_arg2 : FVec F S2048x4x1024 .f32) (main_arg3 : FVec F S3072x1024 .f32) (main_arg4 : FVec F S1024x1024 .f32) : IVec S_ 1 :=
  let main_v0 : FVec F S2048x4x1024 .f32 := Host.absf main_arg0
  let main_cst : FVec F S_ .f32 := constant S_ .f32 0x7F800000#32
  let main_v1 : FVec F S2048x4x1024 .f32 := broadcastInDim S2048x4x1024 ![] bcast_S_S2048x4x1024 main_cst
  let main_v2 : IVec S2048x4x1024 1 := cmpf .olt main_v0 main_v1
  let main_c : IVec S_ 1 := constantI S_ 1 1#1
  let main_v3 : IVec S_ 1 := (fun x v => Host.reduce IntOp.andi x v reducesTo_S2048x4x1024_S_d0_1_2 h_S_) main_v2 main_c
  let main_v4 : FVec F S2048x4x1024 .f32 := Host.absf main_arg1
  let main_cst_0 : FVec F S_ .f32 := constant S_ .f32 0x7F800000#32
  let main_v5 : FVec F S2048x4x1024 .f32 := broadcastInDim S2048x4x1024 ![] bcast_S_S2048x4x1024 main_cst_0
  let main_v6 : IVec S2048x4x1024 1 := cmpf .olt main_v4 main_v5
  let main_c_1 : IVec S_ 1 := constantI S_ 1 1#1
  let main_v7 : IVec S_ 1 := (fun x v => Host.reduce IntOp.andi x v reducesTo_S2048x4x1024_S_d0_1_2 h_S_) main_v6 main_c_1
  let main_v8 : IVec S_ 1 := andi main_v3 main_v7
  let main_v9 : FVec F S2048x4x1024 .f32 := Host.absf main_arg2
  let main_cst_2 : FVec F S_ .f32 := constant S_ .f32 0x7F800000#32
  let main_v10 : FVec F S2048x4x1024 .f32 := broadcastInDim S2048x4x1024 ![] bcast_S_S2048x4x1024 main_cst_2
  let main_v11 : IVec S2048x4x1024 1 := cmpf .olt main_v9 main_v10
  let main_c_3 : IVec S_ 1 := constantI S_ 1 1#1
  let main_v12 : IVec S_ 1 := (fun x v => Host.reduce IntOp.andi x v reducesTo_S2048x4x1024_S_d0_1_2 h_S_) main_v11 main_c_3
  let main_v13 : IVec S_ 1 := andi main_v8 main_v12
  let main_v14 : FVec F S3072x1024 .f32 := Host.absf main_arg3
  let main_cst_4 : FVec F S_ .f32 := constant S_ .f32 0x7F800000#32
  let main_v15 : FVec F S3072x1024 .f32 := broadcastInDim S3072x1024 ![] bcast_S_S3072x1024 main_cst_4
  let main_v16 : IVec S3072x1024 1 := cmpf .olt main_v14 main_v15
  fn_part1 (F := F) main_arg4 main_v13 main_v16
-- ==== Kernel.lean ====
abbrev S2048x4x1024 : Shape := ⟨3, ![2048, 4, 1024]⟩
abbrev S3072x1024 : Shape := ⟨2, ![3072, 1024]⟩
abbrev S1024x1024 : Shape := ⟨2, ![1024, 1024]⟩
abbrev S8192x1024 : Shape := ⟨2, ![8192, 1024]⟩
abbrev S512x1024 : Shape := ⟨2, ![512, 1024]⟩
abbrev S4x2048x1024 : Shape := ⟨3, ![4, 2048, 1024]⟩
abbrev S4x2048x2048 : Shape := ⟨3, ![4, 2048, 2048]⟩
abbrev S1x256x1024 : Shape := ⟨3, ![1, 256, 1024]⟩
abbrev S1x2048x1024 : Shape := ⟨3, ![1, 2048, 1024]⟩
abbrev S1x256x2048 : Shape := ⟨3, ![1, 256, 2048]⟩
abbrev S256x1024 : Shape := ⟨2, ![256, 1024]⟩
abbrev S2048x1024 : Shape := ⟨2, ![2048, 1024]⟩
abbrev S256x2048 : Shape := ⟨2, ![256, 2048]⟩
abbrev S256 : Shape := ⟨1, ![256]⟩
abbrev S256x1 : Shape := ⟨2, ![256, 1]⟩

abbrev nBuf : Space → Nat
  | .hbm => 20
  | .vmem => 20
  | .smem => 0
  | _ => 0

abbrev bufTy : (tb : Table) → Fin (tcTables nBuf tb) → BufTy
  | .hbm, ⟨0, _⟩ => ⟨S2048x4x1024, .f32⟩
  | .hbm, ⟨1, _⟩ => ⟨S2048x4x1024, .f32⟩
  | .hbm, ⟨2, _⟩ => ⟨S2048x4x1024, .f32⟩
  | .hbm, ⟨3, _⟩ => ⟨S3072x1024, .f32⟩
  | .hbm, ⟨4, _⟩ => ⟨S1024x1024, .f32⟩
  | .hbm, ⟨5, _⟩ => ⟨S3072x1024, .bf16⟩
  | .hbm, ⟨6, _⟩ => ⟨S1024x1024, .bf16⟩
  | .hbm, ⟨7, _⟩ => ⟨S8192x1024, .f32⟩
  | .hbm, ⟨8, _⟩ => ⟨S8192x1024, .bf16⟩
  | .hbm, ⟨9, _⟩ => ⟨S8192x1024, .bf16⟩
  | .hbm, ⟨10, _⟩ => ⟨S8192x1024, .bf16⟩
  | .hbm, ⟨11, _⟩ => ⟨S2048x4x1024, .bf16⟩
  | .hbm, ⟨12, _⟩ => ⟨S2048x4x1024, .bf16⟩
  | .hbm, ⟨13, _⟩ => ⟨S2048x4x1024, .bf16⟩
  | .hbm, ⟨14, _⟩ => ⟨S4x2048x1024, .bf16⟩
  | .hbm, ⟨15, _⟩ => ⟨S4x2048x1024, .bf16⟩
  | .hbm, ⟨16, _⟩ => ⟨S4x2048x1024, .bf16⟩
  | .hbm, ⟨17, _⟩ => ⟨S4x2048x1024, .f32⟩
  | .hbm, ⟨18, _⟩ => ⟨S4x2048x2048, .f32⟩
  | .hbm, ⟨19, _⟩ => ⟨S2048x4x1024, .f32⟩
  | .local _ .vmem, ⟨0, _⟩ => ⟨S512x1024, .f32⟩
  | .local _ .vmem, ⟨1, _⟩ => ⟨S512x1024, .f32⟩
  | .local _ .vmem, ⟨2, _⟩ => ⟨S3072x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S1x256x1024, .bf16⟩
  | .local _ .vmem, ⟨10, _⟩ => ⟨S1x256x1024, .bf16⟩
  | .local _ .vmem, ⟨11, _⟩ => ⟨S1x2048x1024, .bf16⟩
  | .local _ .vmem, ⟨12, _⟩ => ⟨S1x2048x1024, .bf16⟩
  | .local _ .vmem, ⟨13, _⟩ => ⟨S1x2048x1024, .bf16⟩
  | .local _ .vmem, ⟨14, _⟩ => ⟨S1x2048x1024, .bf16⟩
  | .local _ .vmem, ⟨15, _⟩ => ⟨S1024x1024, .bf16⟩
  | .local _ .vmem, ⟨16, _⟩ => ⟨S1x256x1024, .f32⟩
  | .local _ .vmem, ⟨17, _⟩ => ⟨S1x256x1024, .f32⟩
  | .local _ .vmem, ⟨18, _⟩ => ⟨S1x256x2048, .f32⟩
  | .local _ .vmem, ⟨19, _⟩ => ⟨S1x256x2048, .f32⟩
  | _, _ => ⟨S2048x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem4_1 : DmaSem sig := 17
abbrev cc1_sem5_0 : DmaSem sig := 18
abbrev cc1_sem5_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![4, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x256x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S1024x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1x256x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x256x2048 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

class Facts₀ : Prop where
  bitsLt_bf16_f32 : FTy.bits .bf16 < FTy.bits .f32
  shapeCasts_S2048x4x1024_S8192x1024 : S2048x4x1024.ShapeCasts S8192x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S3072x1024_S3072x1024_0_0 : ∀ a, (![0, 0] : Fin 2 → Nat) a + S3072x1024.size a ≤ S3072x1024.size a
  h_S3072x1024 : 0 < S3072x1024.numel
  shapeCasts_S3072x1024_S3072x1024 : S3072x1024.ShapeCasts S3072x1024
  slices_S3072x1024_o0_0_S1024x1024 : S3072x1024.Slices ![0, 0] S1024x1024
  slices_S3072x1024_o1024_0_S1024x1024 : S3072x1024.Slices ![1024, 0] S1024x1024
  slices_S3072x1024_o2048_0_S1024x1024 : S3072x1024.Slices ![2048, 0] S1024x1024
  packedbf16_S512x1024_S512x1024_0_0 : (Rect.unit (s := S512x1024) ![0, 0] S512x1024.size inb_S512x1024_S512x1024_0_0).PackedRows (EltTy.packing .bf16)
  shapeCasts_S8192x1024_S2048x4x1024 : S8192x1024.ShapeCasts S2048x4x1024
  transposes_S2048x4x1024_S4x2048x1024_1_0_2 : S2048x4x1024.Transposes [1, 0, 2] S4x2048x1024
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  reduces_S256x2048_S256 : S256x2048.Reduces [1] S256
  shapeCasts_S256_S256x1 : S256.ShapeCasts S256x1
  broadcasts_S256x1_S256x2048 : S256x1.Broadcasts S256x2048
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  shapeCasts_S256x2048_S1x256x2048 : S256x2048.ShapeCasts S1x256x2048
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S256x1024_S1x256x1024 : S256x1024.ShapeCasts S1x256x1024
  transposes_S4x2048x1024_S2048x4x1024_1_0_2 : S4x2048x1024.Transposes [1, 0, 2] S2048x4x1024
  dot_S512x1024_S1024x1024_S512x1024_1_1_0_0_n_n_wf : DotDims.WF S512x1024 S1024x1024 S512x1024 [1] [1] [0] [0] [] []
  dot_S256x1024_S2048x1024_S256x2048_1_1_0_0_n_n_wf : DotDims.WF S256x1024 S2048x1024 S256x2048 [1] [1] [0] [0] [] []
  dot_S256x2048_S2048x1024_S256x1024_1_0_0_1_n_n_wf : DotDims.WF S256x2048 S2048x1024 S256x1024 [1] [0] [0] [1] [] []
  dot_S256x1024_S1024x1024_S256x1024_1_1_0_0_n_n_wf : DotDims.WF S256x1024 S1024x1024 S256x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3072x1024.size a ≤ S3072x1024.size a
  hwx0_1 : ∀ i : grid0.Coords, EltTy.bits .bf16 = 32 ∨ (Rect.block (s := S3072x1024) S3072x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S8192x1024.size a
  hwx0_2 : ∀ i : grid0.Coords, EltTy.bits .bf16 = 32 ∨ (Rect.block (s := S8192x1024) S512x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S8192x1024.size a
  hwx0_3 : ∀ i : grid0.Coords, EltTy.bits .bf16 = 32 ∨ (Rect.block (s := S8192x1024) S512x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S8192x1024.size a
  hwx0_4 : ∀ i : grid0.Coords, EltTy.bits .bf16 = 32 ∨ (Rect.block (s := S8192x1024) S512x1024.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x1024.size a ≤ S4x2048x1024.size a
  hwx1_0 : ∀ i : grid1.Coords, EltTy.bits .bf16 = 32 ∨ (Rect.block (s := S4x2048x1024) S1x256x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x1024.size a ≤ S4x2048x1024.size a
  hwx1_1 : ∀ i : grid1.Coords, EltTy.bits .bf16 = 32 ∨ (Rect.block (s := S4x2048x1024) S1x2048x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x1024.size a ≤ S4x2048x1024.size a
  hwx1_2 : ∀ i : grid1.Coords, EltTy.bits .bf16 = 32 ∨ (Rect.block (s := S4x2048x1024) S1x2048x1024.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S1024x1024.size a
  hwx1_3 : ∀ i : grid1.Coords, EltTy.bits .bf16 = 32 ∨ (Rect.block (s := S1024x1024) S1024x1024.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x256x1024.size a ≤ S4x2048x1024.size a
  hwx1_4 : ∀ i : grid1.Coords, EltTy.bits .f32 = 32 ∨ (Rect.block (s := S4x2048x1024) S1x256x1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x256x2048.size a ≤ S4x2048x2048.size a
  hwx1_5 : ∀ i : grid1.Coords, EltTy.bits .f32 = 32 ∨ (Rect.block (s := S4x2048x2048) S1x256x2048.size (cc1_transform_5 i) (hinb1_5 i)).WholeWords (EltTy.packing .f32)

variable [Facts₀]

def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf
def dot_S256x1024_S2048x1024_S256x2048_1_1_0_0_n_n : DotDims S256x1024 S2048x1024 S256x2048 where
  lhsContracting := [1]
  rhsContracting := [1]
  lhsNonContracting := [0]
  rhsNonContracting := [0]
  lhsBatch := []
  rhsBatch := []
  wf := dot_S256x1024_S2048x1024_S256x2048_1_1_0_0_n_n_wf
def dot_S256x2048_S2048x1024_S256x1024_1_0_0_1_n_n : DotDims S256x2048 S2048x1024 S256x1024 where
  lhsContracting := [1]
  rhsContracting := [0]
  lhsNonContracting := [0]
  rhsNonContracting := [1]
  lhsBatch := []
  rhsBatch := []
  wf := dot_S256x2048_S2048x1024_S256x1024_1_0_0_1_n_n_wf
def dot_S256x1024_S1024x1024_S256x1024_1_1_0_0_n_n : DotDims S256x1024 S1024x1024 S256x1024 where
  lhsContracting := [1]
  rhsContracting := [1]
  lhsNonContracting := [0]
  rhsNonContracting := [0]
  lhsBatch := []
  rhsBatch := []
  wf := dot_S256x1024_S1024x1024_S256x1024_1_1_0_0_n_n_wf

abbrev win0_0 : Pipeline.Window sig grid0 :=
  Pipeline.Window.ofSpec (Memref.whole main_v2) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S3072x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3_0) S512x1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3_1) S512x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3_2) S512x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v7) S1x256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S1x2048x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v9) S1x2048x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1024x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v10_0) S1x256x1024.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v10_1) S1x256x2048.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S2048x4x1024 : Shape := ⟨3, ![2048, 4, 1024]⟩
abbrev S3072x1024 : Shape := ⟨2, ![3072, 1024]⟩
abbrev S1024x1024 : Shape := ⟨2, ![1024, 1024]⟩
abbrev S2048x4x3072 : Shape := ⟨3, ![2048, 4, 3072]⟩
abbrev S4x2048x1024 : Shape := ⟨3, ![4, 2048, 1024]⟩
abbrev S_ : Shape := ⟨0, ![]⟩
abbrev S4x2048x2048 : Shape := ⟨3, ![4, 2048, 2048]⟩
abbrev S4x2048 : Shape := ⟨2, ![4, 2048]⟩
abbrev S4x2048x1 : Shape := ⟨3, ![4, 2048, 1]⟩

abbrev nBuf : Space → Nat
  | .hbm => 33
  | .vmem => 0
  | .smem => 0
  | _ => 0

abbrev bufTy : (tb : Table) → Fin (tcTables nBuf tb) → BufTy
  | .hbm, ⟨0, _⟩ => ⟨S2048x4x1024, .f32⟩
  | .hbm, ⟨1, _⟩ => ⟨S2048x4x1024, .f32⟩
  | .hbm, ⟨2, _⟩ => ⟨S2048x4x1024, .f32⟩
  | .hbm, ⟨3, _⟩ => ⟨S3072x1024, .f32⟩
  | .hbm, ⟨4, _⟩ => ⟨S1024x1024, .f32⟩
  | .hbm, ⟨5, _⟩ => ⟨S2048x4x3072, .f32⟩
  | .hbm, ⟨6, _⟩ => ⟨S2048x4x1024, .f32⟩
  | .hbm, ⟨7, _⟩ => ⟨S2048x4x1024, .f32⟩
  | .hbm, ⟨8, _⟩ => ⟨S2048x4x1024, .f32⟩
  | .hbm, ⟨9, _⟩ => ⟨S4x2048x1024, .f32⟩
  | .hbm, ⟨10, _⟩ => ⟨S_, .f32⟩
  | .hbm, ⟨11, _⟩ => ⟨S4x2048x1024, .f32⟩
  | .hbm, ⟨12, _⟩ => ⟨S4x2048x1024, .f32⟩
  | .hbm, ⟨13, _⟩ => ⟨S4x2048x1024, .f32⟩
  | .hbm, ⟨14, _⟩ => ⟨S4x2048x1024, .f32⟩
  | .hbm, ⟨15, _⟩ => ⟨S4x2048x2048, .f32⟩
  | .hbm, ⟨16, _⟩ => ⟨S_, .f32⟩
  | .hbm, ⟨17, _⟩ => ⟨S4x2048, .f32⟩
  | .hbm, ⟨18, _⟩ => ⟨S_, .f32⟩
  | .hbm, ⟨19, _⟩ => ⟨S4x2048, .f32⟩
  | .hbm, ⟨20, _⟩ => ⟨S4x2048, .f32⟩
  | .hbm, ⟨21, _⟩ => ⟨S4x2048x1, .f32⟩
  | .hbm, ⟨22, _⟩ => ⟨S4x2048x2048, .f32⟩
  | .hbm, ⟨23, _⟩ => ⟨S4x2048x2048, .f32⟩
  | .hbm, ⟨24, _⟩ => ⟨S4x2048x2048, .f32⟩
  | .hbm, ⟨25, _⟩ => ⟨S_, .f32⟩
  | .hbm, ⟨26, _⟩ => ⟨S4x2048, .f32⟩
  | .hbm, ⟨27, _⟩ => ⟨S4x2048x1, .f32⟩
  | .hbm, ⟨28, _⟩ => ⟨S4x2048x2048, .f32⟩
  | .hbm, ⟨29, _⟩ => ⟨S4x2048x2048, .f32⟩
  | .hbm, ⟨30, _⟩ => ⟨S4x2048x1024, .f32⟩
  | .hbm, ⟨31, _⟩ => ⟨S2048x4x1024, .f32⟩
  | .hbm, ⟨32, _⟩ => ⟨S2048x4x1024, .f32⟩
  | _, _ => ⟨S2048x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]

class Facts₀ : Prop where
  slices_S2048x4x3072_S2048x4x1024_0_0_0 : S2048x4x3072.Slices ![0, 0, 0] S2048x4x1024
  slices_S2048x4x3072_S2048x4x1024_0_0_1024 : S2048x4x3072.Slices ![0, 0, 1024] S2048x4x1024
  slices_S2048x4x3072_S2048x4x1024_0_0_2048 : S2048x4x3072.Slices ![0, 0, 2048] S2048x4x1024
  transposes_S2048x4x1024_S4x2048x1024_1_0_2 : S2048x4x1024.Transposes [1, 0, 2] S4x2048x1024
  bcast_S_S4x2048x1024 : S_.BroadcastsInDim S4x2048x1024 (![] : Fin 0 → Fin S4x2048x1024.rank)
  reducesTo_S4x2048x2048_S4x2048_d2 : S4x2048x2048.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  transposes_S4x2048x1024_S2048x4x1024_1_0_2 : S4x2048x1024.Transposes [1, 0, 2] S2048x4x1024
  dot_S2048x4x1024_S3072x1024_S2048x4x3072_2_1_01_0_n_n_wf : DotDims.WF S2048x4x1024 S3072x1024 S2048x4x3072 [2] [1] [0, 1] [0] [] []
  dot_S4x2048x1024_S4x2048x1024_S4x2048x2048_2_2_1_1_0_0_wf : DotDims.WF S4x2048x1024 S4x2048x1024 S4x2048x2048 [2] [2] [1] [1] [0] [0]
  dot_S4x2048x2048_S4x2048x1024_S4x2048x1024_2_1_1_2_0_0_wf : DotDims.WF S4x2048x2048 S4x2048x1024 S4x2048x1024 [2] [1] [1] [2] [0] [0]
  dot_S2048x4x1024_S1024x1024_S2048x4x1024_2_1_01_0_n_n_wf : DotDims.WF S2048x4x1024 S1024x1024 S2048x4x1024 [2] [1] [0, 1] [0] [] []

variable [Facts₀]

def dot_S2048x4x1024_S3072x1024_S2048x4x3072_2_1_01_0_n_n : DotDims S2048x4x1024 S3072x1024 S2048x4x3072 where
  lhsContracting := [2]
  rhsContracting := [1]
  lhsNonContracting := [0, 1]
  rhsNonContracting := [0]
  lhsBatch := []
  rhsBatch := []
  wf := dot_S2048x4x1024_S3072x1024_S2048x4x3072_2_1_01_0_n_n_wf
def dot_S4x2048x1024_S4x2048x1024_S4x2048x2048_2_2_1_1_0_0 : DotDims S4x2048x1024 S4x2048x1024 S4x2048x2048 where
  lhsContracting := [2]
  rhsContracting := [2]
  lhsNonContracting := [1]
  rhsNonContracting := [1]
  lhsBatch := [0]
  rhsBatch := [0]
  wf := dot_S4x2048x1024_S4x2048x1024_S4x2048x2048_2_2_1_1_0_0_wf
def dot_S4x2048x2048_S4x2048x1024_S4x2048x1024_2_1_1_2_0_0 : DotDims S4x2048x2048 S4x2048x1024 S4x2048x1024 where
  lhsContracting := [2]
  rhsContracting := [1]
  lhsNonContracting := [1]
  rhsNonContracting := [2]
  lhsBatch := [0]
  rhsBatch := [0]
  wf := dot_S4x2048x2048_S4x2048x1024_S4x2048x1024_2_1_1_2_0_0_wf
def dot_S2048x4x1024_S1024x1024_S2048x4x1024_2_1_01_0_n_n : DotDims S2048x4x1024 S1024x1024 S2048x4x1024 where
  lhsContracting := [2]
  rhsContracting := [1]
  lhsNonContracting := [0, 1]
  rhsNonContracting := [0]
  lhsBatch := []
  rhsBatch := []
  wf := dot_S2048x4x1024_S1024x1024_S2048x4x1024_2_1_01_0_n_n_wf

class Facts : Prop extends Facts₀ where

variable [Facts]
-- ==== Proof.Spec.lean ====
/-
  The mathematics of the kernel, over the extended reals, with no program in sight.

  A self-attention layer on an input x of shape [S, B, E] = [2048, 4, 1024]:
    * three projections against the row blocks of a [3E, E] weight: q, k, v at (b, s, f) are the inner products of
      x(s, b, ·) with rows f, E + f, 2E + f of the weight; q is then multiplied by a constant (1/32 as a float word);
    * scores(b, t, s) = Σ_e q(b, t, e) · k(b, s, e);
    * each row of scores goes through a softmax: subtract the row's maximum (a fold of max from -∞), exponentiate,
      divide by the row's sum;
    * attn(b, t, f) = Σ_s weights(b, t, s) · v(b, s, f), and out(t, b, g) = Σ_f attn(b, t, f) · w_out(g, f).
  The softmax of a row is one function of the row (softmaxRow), so that two programs that agree on a row of scores agree
  on its weights without the softmax ever being opened.
-/
import Idealize.ShloMosaic.PureOps.Ideal
import Idealize.ShloMosaic.Lib.ValueIdx

noncomputable section

namespace Cert.Attn

open Idealize.ShloMosaic Idealize.ShloMosaic.ValueIdx

/-- The input, [S, B, E]. -/
abbrev SIn : Shape := ⟨3, ![2048, 4, 1024]⟩
/-- The input projection's weight, [3E, E]. -/
abbrev SWi : Shape := ⟨2, ![3072, 1024]⟩
/-- The output projection's weight, [E, E]. -/
abbrev SWo : Shape := ⟨2, ![1024, 1024]⟩
/-- A projected array, batch first: [B, S, E]. -/
abbrev SHd : Shape := ⟨3, ![4, 2048, 1024]⟩
/-- The attention weights, [B, T, S]. -/
abbrev SWt : Shape := ⟨3, ![4, 2048, 2048]⟩

/-- Row o + f of the input projection's weight (o = 0, E, 2E picks the q, k, v block). -/
def wrow (o : Nat) (ho : o + 1024 ≤ 3072) (f : Fin 1024) : Fin 3072 := ⟨o + f.val, by have := f.isLt; omega⟩

/-- x(s, b, ·) against row r of the weight. -/
def proj (x : SIn.Idx → EReal) (w : SWi.Idx → EReal) (s : Fin 2048) (b : Fin 4) (r : Fin 3072) : EReal :=
  ∑ e : Fin 1024, x (ix3 s b e) * w (ix2 r e)

/-- The query scale, as the float word both programs carry (1/32). -/
def scale : EReal := Ideal.ofBits .f32 0x3D000000#32

/-- The float word of -∞, from which a row's maximum is folded. -/
def negInf : EReal := Ideal.ofBits .f32 0xFF800000#32

/-- The scaled queries, batch first. -/
def qArr (x : SIn.Idx → EReal) (w : SWi.Idx → EReal) : SHd.Idx → EReal :=
  fun i => proj x w ⟨(i 1).val, (i 1).isLt⟩ ⟨(i 0).val, (i 0).isLt⟩ (wrow 0 (by omega) ⟨(i 2).val, (i 2).isLt⟩) * scale
/-- The keys, batch first. -/
def kArr (x : SIn.Idx → EReal) (w : SWi.Idx → EReal) : SHd.Idx → EReal :=
  fun i => proj x w ⟨(i 1).val, (i 1).isLt⟩ ⟨(i 0).val, (i 0).isLt⟩ (wrow 1024 (by omega) ⟨(i 2).val, (i 2).isLt⟩)
/-- The values, batch first. -/
def vArr (x : SIn.Idx → EReal) (w : SWi.Idx → EReal) : SHd.Idx → EReal :=
  fun i => proj x w ⟨(i 1).val, (i 1).isLt⟩ ⟨(i 0).val, (i 0).isLt⟩ (wrow 2048 (by omega) ⟨(i 2).val, (i 2).isLt⟩)

theorem qArr_ix3 (x : SIn.Idx → EReal) (w : SWi.Idx → EReal) (b : Fin 4) (s : Fin 2048) (f : Fin 1024) :
    qArr x w (ix3 b s f) = proj x w s b (wrow 0 (by omega) f) * scale := rfl
theorem kArr_ix3 (x : SIn.Idx → EReal) (w : SWi.Idx → EReal) (b : Fin 4) (s : Fin 2048) (f : Fin 1024) :
    kArr x w (ix3 b s f) = proj x w s b (wrow 1024 (by omega) f) := rfl
theorem vArr_ix3 (x : SIn.Idx → EReal) (w : SWi.Idx → EReal) (b : Fin 4) (s : Fin 2048) (f : Fin 1024) :
    vArr x w (ix3 b s f) = proj x w s b (wrow 2048 (by omega) f) := rfl

/-- A row's maximum: max folded from -∞ over the row. -/
def rowMax {n : Nat} (sc : Fin n → EReal) : EReal := (Finset.univ : Finset (Fin n)).fold max negInf sc

/-- The softmax of one row, entry s: exp (sc s - max) over the sum of the row's exponentials. -/
def softmaxRow {n : Nat} (sc : Fin n → EReal) (s : Fin n) : EReal :=
  Ideal.div (Ideal.exp (sc s - rowMax sc)) (∑ s' : Fin n, Ideal.exp (sc s' - rowMax sc))

/-- scores(b, t, s): query row (b, t) against key row (b, s). -/
def score (qa ka : SHd.Idx → EReal) (b : Fin 4) (t s : Fin 2048) : EReal :=
  ∑ e : Fin 1024, qa (ix3 b t e) * ka (ix3 b s e)

/-- weights(b, t, s): the softmax of the score row (b, t). -/
def wgt (qa ka : SHd.Idx → EReal) (b : Fin 4) (t s : Fin 2048) : EReal :=
  softmaxRow (fun s' => score qa ka b t s') s

/-- attn(b, t, f) = Σ_s weights(b, t, s) · v(b, s, f). -/
def attn (qa ka va : SHd.Idx → EReal) (b : Fin 4) (t : Fin 2048) (f : Fin 1024) : EReal :=
  ∑ s : Fin 2048, wgt qa ka b t s * va (ix3 b s f)

/-- The output projection of attn: Σ_f attn(b, t, f) · w_out(g, f). -/
def outb (qa ka va : SHd.Idx → EReal) (wo : SWo.Idx → EReal) (b : Fin 4) (t : Fin 2048) (g : Fin 1024) : EReal :=
  ∑ f : Fin 1024, attn qa ka va b t f * wo (ix2 g f)

/-- The weights as an array [B, T, S]. -/
def wgtArr (qa ka : SHd.Idx → EReal) : SWt.Idx → EReal :=
  fun i => wgt qa ka ⟨(i 0).val, (i 0).isLt⟩ ⟨(i 1).val, (i 1).isLt⟩ ⟨(i 2).val, (i 2).isLt⟩
/-- The projected output, batch first [B, T, E]. -/
def outbArr (qa ka va : SHd.Idx → EReal) (wo : SWo.Idx → EReal) : SHd.Idx → EReal :=
  fun i => outb qa ka va wo ⟨(i 0).val, (i 0).isLt⟩ ⟨(i 1).val, (i 1).isLt⟩ ⟨(i 2).val, (i 2).isLt⟩
/-- The projected output, sequence first [T, B, E]. -/
def outArr (qa ka va : SHd.Idx → EReal) (wo : SWo.Idx → EReal) : SIn.Idx → EReal :=
  fun i => outb qa ka va wo ⟨(i 1).val, (i 1).isLt⟩ ⟨(i 0).val, (i 0).isLt⟩ ⟨(i 2).val, (i 2).isLt⟩

theorem wgtArr_ix3 (qa ka : SHd.Idx → EReal) (b : Fin 4) (t s : Fin 2048) :
    wgtArr qa ka (ix3 b t s) = wgt qa ka b t s := rfl
theorem outbArr_ix3 (qa ka va : SHd.Idx → EReal) (wo : SWo.Idx → EReal) (b : Fin 4) (t : Fin 2048) (g : Fin 1024) :
    outbArr qa ka va wo (ix3 b t g) = outb qa ka va wo b t g := rfl
theorem outArr_ix3 (qa ka va : SHd.Idx → EReal) (wo : SWo.Idx → EReal) (t : Fin 2048) (b : Fin 4) (g : Fin 1024) :
    outArr qa ka va wo (ix3 t b g) = outb qa ka va wo b t g := rfl

end Cert.Attn

end
-- ==== Proof.KernelRun.lean ====
/-
  The kernel program's run with its two results named. The program is five segments: host operations, the projection
  region, host operations, the attention region, one host operation. The buffer contents at each boundary are a fold
  from the launch memory; after the last segment every unscoped buffer holds the last boundary's contents, so each
  result buffer is read off that fold, and the arguments are as launched.
-/
import proofs.«139281_j35192962023831_2_alg».proof.Proof.Gen.KernelIdeal.Frame

noncomputable section

namespace Cert.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable [Cert.KernelIdeal.Facts]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; the two result buffers end at the last boundary's contents
    and the five arguments as launched. -/
theorem run : θ_run defs (onTc (τ := τ) (main (F := F))) ⟨m, fun _ => 0, ρ⟩ (fun r => ∀ c : Dev nD,
      r.2.mem ((c.tc : Thread nD τ).loc main_v11) = W5 m ρ c (Proc.devRef .tc main_v11)
      ∧ r.2.mem ((c.tc : Thread nD τ).loc main_v10_1) = W5 m ρ c (Proc.devRef .tc main_v10_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v11 (by decide)),
       h c _ (mem_uc main_v10_1 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c)⟩)

end Cert.KernelRun

end
-- ==== Proof.LibMatmulNT.lean ====
/-
  A matrix product against a transposed right operand, read at an index. General in the three extents: an [M, K]
  left operand, an [N, K] right operand (rows are output features, as a linear layer stores its weights), contracted
  over the second axis of BOTH, into the zero accumulator: at (p, q) it is the inner product of row p of the left
  operand with row q of the right.

  * `matmul_zero_nt_ix2`: stated under the facts of the dimension record (one contracted axis of extent K, axis 1 of
    each operand, the free axes in place), each of which is `rfl` or a two-line unfolding at a literal record.
-/
import Idealize.ShloMosaic.PureOps.Ideal
import Idealize.ShloMosaic.PureOps.Ideal.Laws
import Idealize.ShloMosaic.Lib.ValueIdx

noncomputable section

namespace Cert.MatmulNT

open Idealize.ShloMosaic Idealize.ShloMosaic.ValueIdx

/-- A product of an [M, K] by an [N, K] operand over the second axis of both, into zeros, at (p, q): the inner
    product of row p with row q. -/
theorem matmul_zero_nt_ix2 {M K N : ℕ} {φ₁ φ₂ : FTy}
    (D : DotDims ⟨2, ![M, K]⟩ ⟨2, ![N, K]⟩ ⟨2, ![M, N]⟩)
    (hr : D.contr.rank = 1) (hs : D.contr.size ⟨0, by omega⟩ = K)
    (hlc : D.lhsContracting = [1]) (hrc : D.rhsContracting = [1])
    (hl0 : ∀ (i : (⟨2, ![M, N]⟩ : Shape).Idx) (q : D.contr.Idx), (D.lhsIdx i q 0).val = (i 0).val)
    (hr0 : ∀ (i : (⟨2, ![M, N]⟩ : Shape).Idx) (q : D.contr.Idx), (D.rhsIdx i q 0).val = (i 1).val)
    (h : FVec Ideal ⟨2, ![M, K]⟩ φ₁) (w : FVec Ideal ⟨2, ![N, K]⟩ φ₂) (p : Fin M) (q : Fin N) :
    FloatOps.matmul D none h w (constant ⟨2, ![M, N]⟩ .f32 0x00000000#32) (ix2 p q)
      = ∑ k : Fin K, h (ix2 p k) * w (ix2 q k) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (D.lhsIdx_val_of_single hlc _ _).trans hk)
  have er : D.rhsIdx (ix2 p q) ((contrEquiv1 D K hr hs).symm k) = ix2 q k := funext fun a => Fin.ext (by
    match a with
    | ⟨0, _⟩ => exact hr0 _ _
    | ⟨1, _⟩ => exact (D.rhsIdx_val_of_single hrc _ _).trans hk)
  rw [el, er]

end Cert.MatmulNT

end
-- ==== Proof.ProjBody.lean ====
/-
  The first kernel's body read at an index. A tile of 512 rows of the flattened input is multiplied against the three
  row blocks of the [3072, 1024] weight (each product contracts the second axis of both operands, into zeros): entry
  (p, q) of the three stored blocks is row p of the tile against rows q, 1024 + q, 2048 + q of the weight, the first
  one then multiplied by the scale word. Narrowing to bf16 is the identity on the extended reals.
-/
import proofs.«139281_j35192962023831_2_alg».proof.Proof.Gen.KernelIdeal.Skeleton
import proofs.«139281_j35192962023831_2_alg».proof.Proof.Spec
import proofs.«139281_j35192962023831_2_alg».proof.Proof.LibMatmulNT
import Idealize.ShloMosaic.PureOps.Ideal.Laws
import Idealize.ShloMosaic.Lib.ValueIdx
import Idealize.ShloMosaic.Lib.ValueLayout
import Idealize.ShloMosaic.Lib.Pipeline.Value

noncomputable section

namespace Cert.ProjBody

open Cert.KernelIdeal Cert.KernelIdeal.Gen Idealize.ShloMosaic Idealize.ShloMosaic.ValueIdx Cert.Attn

variable [Cert.KernelIdeal.Facts]

/-- Row p of the input tile against row r of the weight. -/
def tileProj (x0 : Vec Ideal S512x1024 .f32) (x1 : Vec Ideal S3072x1024 .bf16) (p : Fin 512) (r : Fin 3072) : EReal :=
  ∑ e : Fin 1024, x0 (ix2 p e) * x1 (ix2 r e)

/-- The left operand's free coordinate is the output's row. -/
theorem lhs0 (i : S512x1024.Idx) (q : dot_S512x1024_S1024x1024_S512x1024_1_1_0_0_n_n.contr.Idx) :
    (dot_S512x1024_S1024x1024_S512x1024_1_1_0_0_n_n.lhsIdx i q 0).val = (i 0).val := by
  unfold DotDims.lhsIdx
  rw [dif_neg (show ¬(0 : Fin S512x1024.rank) ∈ dot_S512x1024_S1024x1024_S512x1024_1_1_0_0_n_n.lhsBatch by decide),
    dif_pos (show (0 : Fin S512x1024.rank) ∈ dot_S512x1024_S1024x1024_S512x1024_1_1_0_0_n_n.lhsNonContracting by decide)]
  rfl

/-- The right operand's free coordinate is the output's column. -/
theorem rhs0 (i : S512x1024.Idx) (q : dot_S512x1024_S1024x1024_S512x1024_1_1_0_0_n_n.contr.Idx) :
    (dot_S512x1024_S1024x1024_S512x1024_1_1_0_0_n_n.rhsIdx i q 0).val = (i 1).val := by
  unfold DotDims.rhsIdx
  rw [dif_neg (show ¬(0 : Fin S1024x1024.rank) ∈ dot_S512x1024_S1024x1024_S512x1024_1_1_0_0_n_n.rhsBatch by decide),
    dif_pos (show (0 : Fin S1024x1024.rank) ∈ dot_S512x1024_S1024x1024_S512x1024_1_1_0_0_n_n.rhsNonContracting by decide)]
  rfl

/-- The tile against a [1024, 1024] block of weight rows, into zeros, at (p, q): row p against row q of the block. -/
theorem tile_matmul (a : FVec Ideal S512x1024 .bf16) (w : FVec Ideal S1024x1024 .bf16) (p : Fin 512) (q : Fin 1024) :
    matmul dot_S512x1024_S1024x1024_S512x1024_1_1_0_0_n_n none a w (constant (F := Ideal) S512x1024 .f32 0x00000000#32) (ix2 p q)
      = ∑ e : Fin 1024, a (ix2 p e) * w (ix2 q e) :=
  Cert.MatmulNT.matmul_zero_nt_ix2 dot_S512x1024_S1024x1024_S512x1024_1_1_0_0_n_n rfl rfl rfl rfl lhs0 rhs0 a w p q

/-- The weight's block starting at row o, read at (q, e): the weight at (o + q, e). -/
theorem wblock (o : Nat) (ho : o + 1024 ≤ 3072) (x1 : Vec Ideal S3072x1024 .bf16)
    (h : S3072x1024.Slices ![o, 0] S1024x1024) (q : Fin 1024) (e : Fin 1024) :
    extractStridedSlice S1024x1024 ![o, 0] (k0_pay2 (F := Ideal) x1) h (ix2 q e) = x1 (ix2 (wrow o ho q) e) := by
  unfold k0_pay2
  rw [shapeCast_self]
  exact slice2_axis0_apply o x1 h q e (wrow o ho q) rfl

theorem pay3_apply (x0 : Vec Ideal S512x1024 .f32) (x1 : Vec Ideal S3072x1024 .bf16) (p : Fin 512) (q : Fin 1024) :
    k0_pay3 (F := Ideal) x0 x1 (ix2 p q) = tileProj x0 x1 p (wrow 0 (by omega) q) * scale := by
  unfold k0_pay3
  show matmul dot_S512x1024_S1024x1024_S512x1024_1_1_0_0_n_n none (k0_pay1 x0) _ _ (ix2 p q) * _ = _
  rw [tile_matmul]
  unfold tileProj
  refine congrArg (· * scale) (Finset.sum_congr rfl fun e _ => ?_)
  rw [wblock 0 (by omega)]
  unfold k0_pay1
  rw [truncf_apply, shapeCast_self]

theorem pay4_apply (x0 : Vec Ideal S512x1024 .f32) (x1 : Vec Ideal S3072x1024 .bf16) (p : Fin 512) (q : Fin 1024) :
    k0_pay4 (F := Ideal) x0 x1 (ix2 p q) = tileProj x0 x1 p (wrow 1024 (by omega) q) := by
  unfold k0_pay4
  show matmul dot_S512x1024_S1024x1024_S512x1024_1_1_0_0_n_n none (k0_pay1 x0) _ _ (ix2 p q) = _
  rw [tile_matmul]
  unfold tileProj
  refine Finset.sum_congr rfl fun e _ => ?_
  rw [wblock 1024 (by omega)]
  unfold k0_pay1
  rw [truncf_apply, shapeCast_self]

theorem pay5_apply (x0 : Vec Ideal S512x1024 .f32) (x1 : Vec Ideal S3072x1024 .bf16) (p : Fin 512) (q : Fin 1024) :
    k0_pay5 (F := Ideal) x0 x1 (ix2 p q) = tileProj x0 x1 p (wrow 2048 (by omega) q) := by
  unfold k0_pay5
  show matmul dot_S512x1024_S1024x1024_S512x1024_1_1_0_0_n_n none (k0_pay1 x0) _ _ (ix2 p q) = _
  rw [tile_matmul]
  unfold tileProj
  refine Finset.sum_congr rfl fun e _ => ?_
  rw [wblock 2048 (by omega)]
  unfold k0_pay1
  rw [truncf_apply, shapeCast_self]

end Cert.ProjBody

end
-- ==== Proof.ProjFinal.lean ====
/-
  The first kernel's three output arrays as whole-array functions of the arrays the region is entered with.
  Point t of the 16-point grid stages rows 512 t … 512 t + 511 of the flattened input and the whole weight, and writes
  back rows 512 t … 512 t + 511 of each output; the sixteen blocks tile the 8192 rows. So each output array is, index by
  index, a row of the flattened input against a row of the weight.
-/
import proofs.«139281_j35192962023831_2_alg».proof.Proof.Gen.KernelIdeal.Frame
import proofs.«139281_j35192962023831_2_alg».proof.Proof.Spec
import proofs.«139281_j35192962023831_2_alg».proof.Proof.ProjBody
import Idealize.ShloMosaic.Lib.Pipeline.Value
import Idealize.ShloMosaic.Lib.ValueIdx

noncomputable section

namespace Cert.ProjFinal

open Cert.KernelIdeal Cert.KernelIdeal.Gen Idealize.ShloMosaic Idealize.ShloMosaic.TcCoe Idealize.SL.Sem
open Idealize.ShloMosaic.ValueIdx Cert.Attn Cert.ProjBody
open Idealize.ShloMosaic.Pipeline (Dat)

variable [Cert.KernelIdeal.Facts]
variable (V : (c : Dev nD) → (b : Ref sig .tc) → Buf (Elt Ideal) ((c : Thread nD τ).loc b))

/-- Row (i 0) of the flattened input against row o + (i 1) of the weight. -/
def projArr (o : Nat) (ho : o + 1024 ≤ 3072) (X : S8192x1024.Idx → EReal) (W : S3072x1024.Idx → EReal) : S8192x1024.Idx → EReal :=
  fun i => ∑ e : Fin 1024, X (ix2 ⟨(i 0).val, (i 0).isLt⟩ e) * W (ix2 (wrow o ho ⟨(i 1).val, (i 1).isLt⟩) e)

/-- The scaled query rows. -/
def qOut (X : S8192x1024.Idx → EReal) (W : S3072x1024.Idx → EReal) : S8192x1024.Idx → EReal :=
  fun i => projArr 0 (by omega) X W i * scale

theorem hz : (![0, 0] : Fin 2 → Nat) = fun _ => 0 := funext fun a => by fin_cases a <;> rfl

/-- The index maps over the grid: the input tile moves with the output tile along the rows, the weight is staged whole,
    and there are 16 row tiles. -/
theorem idx_facts : ∀ t : Fin cfg0.N, win0_0.index t (0 : Fin 2) = win0_2.index t (0 : Fin 2)
    ∧ win0_0.index t (1 : Fin 2) = 0
    ∧ win0_1.index t (0 : Fin 2) = 0 ∧ win0_1.index t (1 : Fin 2) = 0
    ∧ win0_2.index t (1 : Fin 2) = 0 ∧ win0_2.index t (0 : Fin 2) ≤ 15
    ∧ win0_3.index t = win0_2.index t ∧ win0_4.index t = win0_2.index t :=
  (by decide +kernel : ∀ t : Fin grid0.N, _)

/-- Every row tile is some point's. -/
theorem idx_onto : ∀ q0 : Fin 16, ∃ t : Fin cfg0.N, win0_2.index t = ![q0.val, 0] :=
  (by decide +kernel : ∀ q0 : Fin 16, ∃ t : Fin grid0.N, win0_2.index t = ![q0.val, 0])

/-- One point, over variables: if the staged tile holds rows r0 … r0 + 511 of X and the staged weight is W, the
    payload at (p, q) is the array function at (r0 + p, q). -/
theorem point (o : Nat) (ho : o + 1024 ≤ 3072) (X : S8192x1024.Idx → EReal) (W : S3072x1024.Idx → EReal)
    (x0 : Vec Ideal S512x1024 .f32) (x1 : Vec Ideal S3072x1024 .bf16) (r0 : Nat)
    (h0 : ∀ (p : Fin 512) (e : Fin 1024) (k : Fin 8192), k.val = r0 + p.val → x0 (ix2 p e) = X (ix2 k e))
    (h1 : ∀ (r : Fin 3072) (e : Fin 1024), x1 (ix2 r e) = W (ix2 r e))
    (p : Fin 512) (q : Fin 1024) (i : S8192x1024.Idx) (hi0 : (i 0).val = r0 + p.val) (hi1 : (i 1).val = q.val) :
    tileProj x0 x1 p (wrow o ho q) = projArr o ho X W i := by
  unfold tileProj projArr
  refine Finset.sum_congr rfl fun e _ => ?_
  rw [h0 p e ⟨(i 0).val, (i 0).isLt⟩ hi0, h1]
  exact congrArg (fun r => X _ * W (ix2 r e)) (Fin.ext (by show o + q.val = o + (i 1).val; omega))

/-- The input tile at point t, read at (p, e): the flattened input at (512 · tile + p, e). -/
theorem iblk0_0_apply (c : Dev nD) (t : Fin cfg0.N) (p : Fin 512) (e : Fin 1024) (k : Fin 8192)
    (hk : k.val = win0_2.index t (0 : Fin 2) * 512 + p.val) :
    iblk0 V c 0 t (ix2 p e) = V c main_v2 (ix2 k e) := by
  obtain ⟨e0, e1, -⟩ := idx_facts t
  show V c main_v2 (((cfg0.win 0).blk t).view.emb (ix2 p e)) = V c main_v2 (ix2 k e)
  refine congrArg (V c main_v2) (funext fun a => Fin.ext ?_)
  match a with
  | ⟨0, _⟩ => show win0_0.index t (0 : Fin 2) * 512 + 1 * p.val = k.val; omega
  | ⟨1, _⟩ => show win0_0.index t (1 : Fin 2) * 1024 + 1 * e.val = e.val; omega

/-- The staged weight at any point is the whole weight. -/
theorem iblk0_1_apply (c : Dev nD) (t : Fin cfg0.N) (r : Fin 3072) (e : Fin 1024) :
    iblk0 V c 1 t (ix2 r e) = V c main_v0 (ix2 r e) := by
  obtain ⟨-, -, e2, e3, -⟩ := idx_facts t
  show V c main_v0 (((cfg0.win 1).blk t).view.emb (ix2 r e)) = V c main_v0 (ix2 r e)
  refine congrArg (V c main_v0) (funext fun a => Fin.ext ?_)
  match a with
  | ⟨0, _⟩ => show win0_1.index t (0 : Fin 2) * 3072 + 1 * r.val = r.val; omega
  | ⟨1, _⟩ => show win0_1.index t (1 : Fin 2) * 1024 + 1 * e.val = e.val; omega

/-- What point t writes back to the query array is block t of the query function. -/
theorem flushed2_eq (c : Dev nD) (t : Fin cfg0.N) :
    (dat0 V c).flushed 2 t = ((cfg0.win 2).blk t).view.read (Elt Ideal) (qOut (V c main_v2) (V c main_v0)) := by
  show (cfg0.win 2).cut (grid0.coords t) ((dat0 V c).after 2 t) = _
  rw [after0_2]
  unfold out0_2
  rw [View.canon_unit_zero hz]
  simp only [View.ld_unit_zero (S := S512x1024) hz, View.ld_unit_zero (S := S3072x1024) hz]
  obtain ⟨-, -, -, -, e4, -⟩ := idx_facts t
  refine funext fun (y : S512x1024.Idx) => ?_
  obtain ⟨p, q, rfl⟩ : ∃ (p : Fin 512) (q : Fin 1024), y = ix2 p q := ⟨y 0, y 1, eq_ix2 y⟩
  show k0_pay3 (iblk0 V c 0 t) (iblk0 V c 1 t) (ix2 p q) = qOut (V c main_v2) (V c main_v0) (((cfg0.win 2).blk t).view.emb (ix2 p q))
  rw [pay3_apply]
  unfold qOut
  refine congrArg (· * scale) ?_
  refine point 0 (by omega) _ _ _ _ (win0_2.index t (0 : Fin 2) * 512) (fun p e k hk => iblk0_0_apply V c t p e k hk)
    (fun r e => iblk0_1_apply V c t r e) p q _ ?_ ?_
  · show win0_2.index t (0 : Fin 2) * 512 + 1 * p.val = _; omega
  · show win0_2.index t (1 : Fin 2) * 1024 + 1 * q.val = _; omega

/-- What point t writes back to output 1 of the region is block t of the rows against weight rows 1024 + q. -/
theorem flushed3_eq (c : Dev nD) (t : Fin cfg0.N) :
    (dat0 V c).flushed 3 t = ((cfg0.win 3).blk t).view.read (Elt Ideal) (projArr 1024 (by omega) (V c main_v2) (V c main_v0)) := by
  show (cfg0.win 3).cut (grid0.coords t) ((dat0 V c).after 3 t) = _
  rw [after0_3]
  unfold out0_3
  rw [View.canon_unit_zero hz]
  simp only [View.ld_unit_zero (S := S512x1024) hz, View.ld_unit_zero (S := S3072x1024) hz]
  obtain ⟨-, -, -, -, e4, -, e6, e7⟩ := idx_facts t
  have a0 : win0_3.index t (0 : Fin 2) = win0_2.index t (0 : Fin 2) := congrFun e6 0
  have a1 : win0_3.index t (1 : Fin 2) = win0_2.index t (1 : Fin 2) := congrFun e6 1
  refine funext fun (y : S512x1024.Idx) => ?_
  obtain ⟨p, q, rfl⟩ : ∃ (p : Fin 512) (q : Fin 1024), y = ix2 p q := ⟨y 0, y 1, eq_ix2 y⟩
  show k0_pay4 (iblk0 V c 0 t) (iblk0 V c 1 t) (ix2 p q) = projArr 1024 (by omega) (V c main_v2) (V c main_v0) (((cfg0.win 3).blk t).view.emb (ix2 p q))
  rw [pay4_apply]
  refine point 1024 (by omega) _ _ _ _ (win0_2.index t (0 : Fin 2) * 512) (fun p e k hk => iblk0_0_apply V c t p e k hk)
    (fun r e => iblk0_1_apply V c t r e) p q _ ?_ ?_
  · show win0_3.index t (0 : Fin 2) * 512 + 1 * p.val = _; omega
  · show win0_3.index t (1 : Fin 2) * 1024 + 1 * q.val = _; omega

/-- What point t writes back to output 2 of the region is block t of the rows against weight rows 2048 + q. -/
theorem flushed4_eq (c : Dev nD) (t : Fin cfg0.N) :
    (dat0 V c).flushed 4 t = ((cfg0.win 4).blk t).view.read (Elt Ideal) (projArr 2048 (by omega) (V c main_v2) (V c main_v0)) := by
  show (cfg0.win 4).cut (grid0.coords t) ((dat0 V c).after 4 t) = _
  rw [after0_4]
  unfold out0_4
  rw [View.canon_unit_zero hz]
  simp only [View.ld_unit_zero (S := S512x1024) hz, View.ld_unit_zero (S := S3072x1024) hz]
  obtain ⟨-, -, -, -, e4, -, e6, e7⟩ := idx_facts t
  have a0 : win0_4.index t (0 : Fin 2) = win0_2.index t (0 : Fin 2) := congrFun e7 0
  have a1 : win0_4.index t (1 : Fin 2) = win0_2.index t (1 : Fin 2) := congrFun e7 1
  refine funext fun (y : S512x1024.Idx) => ?_
  obtain ⟨p, q, rfl⟩ : ∃ (p : Fin 512) (q : Fin 1024), y = ix2 p q := ⟨y 0, y 1, eq_ix2 y⟩
  show k0_pay5 (iblk0 V c 0 t) (iblk0 V c 1 t) (ix2 p q) = projArr 2048 (by omega) (V c main_v2) (V c main_v0) (((cfg0.win 4).blk t).view.emb (ix2 p q))
  rw [pay5_apply]
  refine point 2048 (by omega) _ _ _ _ (win0_2.index t (0 : Fin 2) * 512) (fun p e k hk => iblk0_0_apply V c t p e k hk)
    (fun r e => iblk0_1_apply V c t r e) p q _ ?_ ?_
  · show win0_4.index t (0 : Fin 2) * 512 + 1 * p.val = _; omega
  · show win0_4.index t (1 : Fin 2) * 1024 + 1 * q.val = _; omega

/-- An index of the array is in point t's block iff each coordinate is in the block's range. -/
theorem mem_blk2 (t : Fin cfg0.N) (i : S8192x1024.Idx) :
    i ∈ ((cfg0.win 2).blk t).view.set ↔ ∀ a : Fin 2, win0_2.index t a * S512x1024.size a ≤ (i a).val ∧ (i a).val < win0_2.index t a * S512x1024.size a + S512x1024.size a := by
  show i ∈ ((View.whole main_v3_0).slice (win0_2.rect t)).set ↔ _
  rw [View.set_slice_whole, Rect.mem_set_unit]
  exact Iff.rfl

/-- Row r lies in the block of the point whose tile is r / 512. -/
theorem cover2 (i : S8192x1024.Idx) : ∃ t : Fin cfg0.N, (cfg0.win 2).flush t = true ∧ i ∈ ((cfg0.win 2).blk t).view.set := by
  have hi0 : (i 0).val < 8192 := (i 0).isLt
  have hi1 : (i 1).val < 1024 := (i 1).isLt
  obtain ⟨t, ht⟩ := idx_onto ⟨(i 0).val / 512, by omega⟩
  obtain ⟨-, -, -, -, -, -, e6, e7⟩ := idx_facts t
  have q0 : win0_2.index t (0 : Fin 2) = (i 0).val / 512 := (congrFun rfl 0).trans (congrFun ht 0)
  have q1 : win0_2.index t (1 : Fin 2) = 0 := (congrFun rfl 1).trans (congrFun ht 1)
  refine ⟨t, flush0_2 t, ?_⟩
  rw [mem_blk2]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 1024 ≤ (i 1).val ∧ (i 1).val < win0_2.index t (1 : Fin 2) * 1024 + 1024; omega

/-- The array after the region. -/
theorem final2 (c : Dev nD) : (dat0 V c).arrAt 2 cfg0.N = qOut (V c main_v2) (V c main_v0) :=
  (dat0 V c).arrAt_eq_of_cover 2 _ (fun t _ => flushed2_eq V c t) cover2

/-- An index of the array is in point t's block iff each coordinate is in the block's range. -/
theorem mem_blk3 (t : Fin cfg0.N) (i : S8192x1024.Idx) :
    i ∈ ((cfg0.win 3).blk t).view.set ↔ ∀ a : Fin 2, win0_3.index t a * S512x1024.size a ≤ (i a).val ∧ (i a).val < win0_3.index t a * S512x1024.size a + S512x1024.size a := by
  show i ∈ ((View.whole main_v3_1).slice (win0_3.rect t)).set ↔ _
  rw [View.set_slice_whole, Rect.mem_set_unit]
  exact Iff.rfl

/-- Row r lies in the block of the point whose tile is r / 512. -/
theorem cover3 (i : S8192x1024.Idx) : ∃ t : Fin cfg0.N, (cfg0.win 3).flush t = true ∧ i ∈ ((cfg0.win 3).blk t).view.set := by
  have hi0 : (i 0).val < 8192 := (i 0).isLt
  have hi1 : (i 1).val < 1024 := (i 1).isLt
  obtain ⟨t, ht⟩ := idx_onto ⟨(i 0).val / 512, by omega⟩
  obtain ⟨-, -, -, -, -, -, e6, e7⟩ := idx_facts t
  have q0 : win0_3.index t (0 : Fin 2) = (i 0).val / 512 := (congrFun e6 0).trans (congrFun ht 0)
  have q1 : win0_3.index t (1 : Fin 2) = 0 := (congrFun e6 1).trans (congrFun ht 1)
  refine ⟨t, flush0_3 t, ?_⟩
  rw [mem_blk3]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 1024 ≤ (i 1).val ∧ (i 1).val < win0_3.index t (1 : Fin 2) * 1024 + 1024; omega

/-- The array after the region. -/
theorem final3 (c : Dev nD) : (dat0 V c).arrAt 3 cfg0.N = projArr 1024 (by omega) (V c main_v2) (V c main_v0) :=
  (dat0 V c).arrAt_eq_of_cover 3 _ (fun t _ => flushed3_eq V c t) cover3

/-- An index of the array is in point t's block iff each coordinate is in the block's range. -/
theorem mem_blk4 (t : Fin cfg0.N) (i : S8192x1024.Idx) :
    i ∈ ((cfg0.win 4).blk t).view.set ↔ ∀ a : Fin 2, win0_4.index t a * S512x1024.size a ≤ (i a).val ∧ (i a).val < win0_4.index t a * S512x1024.size a + S512x1024.size a := by
  show i ∈ ((View.whole main_v3_2).slice (win0_4.rect t)).set ↔ _
  rw [View.set_slice_whole, Rect.mem_set_unit]
  exact Iff.rfl

/-- Row r lies in the block of the point whose tile is r / 512. -/
theorem cover4 (i : S8192x1024.Idx) : ∃ t : Fin cfg0.N, (cfg0.win 4).flush t = true ∧ i ∈ ((cfg0.win 4).blk t).view.set := by
  have hi0 : (i 0).val < 8192 := (i 0).isLt
  have hi1 : (i 1).val < 1024 := (i 1).isLt
  obtain ⟨t, ht⟩ := idx_onto ⟨(i 0).val / 512, by omega⟩
  obtain ⟨-, -, -, -, -, -, e6, e7⟩ := idx_facts t
  have q0 : win0_4.index t (0 : Fin 2) = (i 0).val / 512 := (congrFun e7 0).trans (congrFun ht 0)
  have q1 : win0_4.index t (1 : Fin 2) = 0 := (congrFun e7 1).trans (congrFun ht 1)
  refine ⟨t, flush0_4 t, ?_⟩
  rw [mem_blk4]
  intro a
  match a with
  | ⟨0, _⟩ => show win0_4.index t (0 : Fin 2) * 512 ≤ (i 0).val ∧ (i 0).val < win0_4.index t (0 : Fin 2) * 512 + 512; omega
  | ⟨1, _⟩ => show win0_4.index t (1 : Fin 2) * 1024 ≤ (i 1).val ∧ (i 1).val < win0_4.index t (1 : Fin 2) * 1024 + 1024; omega

/-- The array after the region. -/
theorem final4 (c : Dev nD) : (dat0 V c).arrAt 4 cfg0.N = projArr 2048 (by omega) (V c main_v2) (V c main_v0) :=
  (dat0 V c).arrAt_eq_of_cover 4 _ (fun t _ => flushed4_eq V c t) cover4

end Cert.ProjFinal

end
-- ==== Proof.LibMatmulNN.lean ====
/-
  A reusable lemma: a matrix product on the matrix unit, read at an entry.

  A `tpu.matmul` of an [M, K] operand by a [K, N] operand — contracting axis 1 of the left with axis 0 of the right, no
  batch axes — accumulated into the zero splat, read over the extended reals at the output entry (p, q), is the inner
  product of row p of the left operand with column q of the right one:

      (L · R)[p, q] = Σ_{k < K} L[p, k] · R[k, q].

  Generic in the extents M, K, N and in the operands' float formats; the dimension record may be any one that equals the
  plain M×K by K×N record (a printed program's own record does, by unfolding).
-/
import Idealize.ShloMosaic.PureOps.Ideal.Laws
import Idealize.ShloMosaic.Lib.ValueIdx

noncomputable section

namespace Cert.MatmulNN

open Idealize.ShloMosaic Idealize.ShloMosaic.ValueIdx

variable {M K N : Nat} {φ₁ φ₂ : FTy}

/-- The left operand's index at output (p, q) and contraction position k is (p, k). -/
theorem lhsIdx_plain (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => rfl
    | ⟨1, _⟩ =>
      exact ((DotDims.plain M K N).lhsIdx_val_of_single rfl (ix2 p q) _).trans
        (contrEquiv1_symm_val (DotDims.plain M K N) K rfl rfl k))

/-- The right operand's index at output (p, q) and contraction position k is (k, q). -/
theorem rhsIdx_plain (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ =>
      exact ((DotDims.plain M K N).rhsIdx_val_of_single rfl (ix2 p q) _).trans
        (contrEquiv1_symm_val (DotDims.plain M K N) K rfl rfl k)
    | ⟨1, _⟩ => rfl)

/-- A matrix product into zeros, at entry (p, q): the inner product of row p with column q. -/
theorem matmul_zero_apply (D : DotDims ⟨2, ![M, K]⟩ ⟨2, ![K, N]⟩ ⟨2, ![M, N]⟩) (hD : D = DotDims.plain M K N)
    (prec : Option ContractPrecision) (lhs : FVec Ideal ⟨2, ![M, K]⟩ φ₁) (rhs : FVec Ideal ⟨2, ![K, N]⟩ φ₂)
    (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  subst hD
  rw [Ideal.matmul_constant_zero_apply, ← Equiv.sum_comp (contrEquiv1 (DotDims.plain M K N) K rfl rfl).symm]
  refine Finset.sum_congr rfl fun k _ => ?_
  rw [lhsIdx_plain, rhsIdx_plain]

end Cert.MatmulNN

end
-- ==== Proof.LibKeepdims.lean ====
/-
  Two layout operations a row reduction with kept dimensions needs, read at an index. General in the extents.

  * `shapeCast_a_a1_apply`: an [a] vector viewed as an [a, 1] column reads, at (i, u), the vector at i.
  * `broadcastTo_a1_ab_apply`: an [a, 1] column repeated across b columns reads, at (p, c), the column at (p, 0).
-/
import Idealize.ShloMosaic.Lib.Pipeline.Value
import Idealize.ShloMosaic.Lib.ValueIdx

noncomputable section

namespace Cert.Keepdims

open Idealize.ShloMosaic Idealize.ShloMosaic.ValueIdx

variable {α : Type}

/-- An [a] vector viewed as an [a, 1] column reads, at (i, u), the vector at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column repeated across b columns reads, at (p, c), the column's entry of row p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims

end
-- ==== Proof.AttnBody.lean ====
/-
  The arithmetic of the attention tile, read at an index, over the extended reals.

  For one batch element and one tile of 256 query rows: the scores are the inner products of the tile's query rows with
  all 2048 key rows; every score row goes through a softmax (subtract the row's maximum, a fold of max from -∞;
  exponentiate; divide by the row's sum of exponentials); the weights are then multiplied against the values
  (Σ_s weight(i, s) · value(s, f)) and the result against the rows of the output weight (Σ_f attn(i, f) · w(g, f)).
  A change of float format is the identity on extended reals, and adding or dropping a unit leading axis does not move
  an entry, so the three results read at an index are exactly these textbook expressions:

  * `pay1_apply`, `pay2_apply`: the weights at (i, s), as a [256, 2048] array and with a unit leading axis, are
    `softmaxRow` of the score row i at s;
  * `pay3_apply`: the projected output at (i, g) is Σ_f (Σ_s weight(i, s) · value(s, f)) · w(g, f).

  The steps: a row maximum and a row sum by a one-axis reduction (`rowmax_apply`, `rowsum_apply`), a per-row quantity
  kept as a column and repeated across the row (`keep_apply`), the softmax of a row from these (`softmax_block`), and
  the three matrix products as plain sums (`scores_apply`, `attn_apply`, and the last inside `pay3_apply`).
-/
import proofs.«139281_j35192962023831_2_alg».proof.Proof.Gen.KernelIdeal.Skeleton
import proofs.«139281_j35192962023831_2_alg».proof.Proof.Spec
import proofs.«139281_j35192962023831_2_alg».proof.Proof.LibMatmulNT
import proofs.«139281_j35192962023831_2_alg».proof.Proof.LibMatmulNN
import proofs.«139281_j35192962023831_2_alg».proof.Proof.LibKeepdims
import Idealize.ShloMosaic.PureOps.Ideal.Laws
import Idealize.ShloMosaic.Lib.ValueIdx
import Idealize.ShloMosaic.Lib.ValueLayout
import Idealize.ShloMosaic.Lib.Pipeline.Value

noncomputable section

namespace Cert.AttnBody

open Cert.KernelIdeal Cert.KernelIdeal.Gen Idealize.ShloMosaic Idealize.ShloMosaic.ValueIdx Cert.Attn

variable [Cert.KernelIdeal.Facts]

/-- The maximum of row i of a [256, 2048] array, taken by a reduction over the second axis from the word of -∞. -/
theorem rowmax_apply (v : FVec Ideal S256x2048 .f32) (h : S256x2048.Reduces [1] S256) (hφ : FKind.Formats .f32)
    (hacc : (0xFF800000#32 : BitVec (FTy.bits .f32)) = FKind.maximumf.neutral .f32 hφ) (i : Fin 256) :
    multiReduction .maximumf [1] S256 v 0xFF800000#32 h hφ hacc (ix1 i) = rowMax (fun s : Fin 2048 => v (ix2 i s)) := by
  refine (Ideal.multiReduction_maximumf_single v _ h hφ hacc (ix1 i)).trans ?_
  unfold rowMax negInf
  show (Finset.univ : Finset (Fin 2048)).fold max (Ideal.ofBits .f32 0xFF800000#32) (fun k => v (h.lift (ix1 i) k)) = _
  congr 1
  funext k
  congr 1
  funext a
  refine Fin.ext ?_
  match a with
  | ⟨0, _⟩ => rfl
  | ⟨1, _⟩ => rfl

/-- The sum of row i of a [256, 2048] array, taken by a reduction over the second axis from zero. -/
theorem rowsum_apply (v : FVec Ideal S256x2048 .f32) (h : S256x2048.Reduces [1] S256) (hφ : FKind.Formats .f32)
    (hacc : (0x00000000#32 : BitVec (FTy.bits .f32)) = FKind.add.neutral .f32 hφ) (i : Fin 256) :
    multiReduction .add [1] S256 v 0x00000000#32 h hφ hacc (ix1 i) = ∑ s : Fin 2048, v (ix2 i s) := by
  refine (Ideal.multiReduction_add_single v _ h hφ hacc (ix1 i)).trans ?_
  show ∑ k : Fin 2048, v (h.lift (ix1 i) k) = _
  refine Finset.sum_congr rfl fun k _ => ?_
  congr 1
  funext a
  refine Fin.ext ?_
  match a with
  | ⟨0, _⟩ => rfl
  | ⟨1, _⟩ => rfl

/-- A [256] vector kept as a [256, 1] column and repeated across 2048 columns reads, at (i, s), the vector at i. -/
theorem keep_apply (w : FVec Ideal S256 .f32) (hc : S256.ShapeCasts S256x1) (hb : S256x1.Broadcasts S256x2048)
    (i : Fin 256) (s : Fin 2048) :
    broadcastTo S256x2048 (shapeCast S256x1 w hc) hb (ix2 i s) = w (ix1 i) :=
  (Cert.Keepdims.broadcastTo_a1_ab_apply _ hb i s).trans (Cert.Keepdims.shapeCast_a_a1_apply w hc i 0)

/-- The exponential of an entry less its row's maximum. -/
theorem expsub_apply (v : FVec Ideal S256x2048 .f32) (h : S256x2048.Reduces [1] S256) (hφ : FKind.Formats .f32)
    (hmax : (0xFF800000#32 : BitVec (FTy.bits .f32)) = FKind.maximumf.neutral .f32 hφ)
    (hc : S256.ShapeCasts S256x1) (hb : S256x1.Broadcasts S256x2048) (i : Fin 256) (s : Fin 2048) :
    exp (subf v (broadcastTo S256x2048 (shapeCast S256x1 (multiReduction .maximumf [1] S256 v 0xFF800000#32 h hφ hmax) hc) hb))
        (ix2 i s)
      = Ideal.exp (v (ix2 i s) - rowMax (fun s' : Fin 2048 => v (ix2 i s'))) := by
  show Ideal.exp (v (ix2 i s)
      - broadcastTo S256x2048 (shapeCast S256x1 (multiReduction .maximumf [1] S256 v 0xFF800000#32 h hφ hmax) hc) hb (ix2 i s)) = _
  rw [keep_apply, rowmax_apply]

/-- The softmax block of the body: subtract the row maximum, exponentiate, divide by the row sum. At (i, s) it is the
    softmax of row i at s. -/
theorem softmax_block (v : FVec Ideal S256x2048 .f32) (h : S256x2048.Reduces [1] S256) (hφ : FKind.Formats .f32)
    (hmax : (0xFF800000#32 : BitVec (FTy.bits .f32)) = FKind.maximumf.neutral .f32 hφ)
    (hadd : (0x00000000#32 : BitVec (FTy.bits .f32)) = FKind.add.neutral .f32 hφ)
    (hc : S256.ShapeCasts S256x1) (hb : S256x1.Broadcasts S256x2048) (i : Fin 256) (s : Fin 2048) :
    divf (exp (subf v (broadcastTo S256x2048 (shapeCast S256x1 (multiReduction .maximumf [1] S256 v 0xFF800000#32 h hφ hmax) hc) hb)))
        (broadcastTo S256x2048 (shapeCast S256x1 (multiReduction .add [1] S256
          (exp (subf v (broadcastTo S256x2048 (shapeCast S256x1 (multiReduction .maximumf [1] S256 v 0xFF800000#32 h hφ hmax) hc) hb)))
          0x00000000#32 h hφ hadd) hc) hb) (ix2 i s)
      = softmaxRow (fun s' : Fin 2048 => v (ix2 i s')) s := by
  refine (divf_apply _ _ _).trans ?_
  rw [keep_apply, rowsum_apply, expsub_apply]
  unfold softmaxRow
  refine congrArg _ (Finset.sum_congr rfl fun k _ => ?_)
  exact expsub_apply v h hφ hmax hc hb i k

/-- the score row of query row i of the tile against every key row -/
def tileScore (x0 : Vec Ideal S1x256x1024 .bf16) (x1 : Vec Ideal S1x2048x1024 .bf16) (i : Fin 256) (s : Fin 2048) : EReal :=
  ∑ e : Fin 1024, x0 (ix3 (0 : Fin 1) i e) * x1 (ix3 (0 : Fin 1) s e)

/-- The left operand's row coordinate in the scores' product is the output's row. -/
theorem lhs0_scores (i : S256x2048.Idx) (q : dot_S256x1024_S2048x1024_S256x2048_1_1_0_0_n_n.contr.Idx) :
    (dot_S256x1024_S2048x1024_S256x2048_1_1_0_0_n_n.lhsIdx i q 0).val = (i 0).val := by
  unfold DotDims.lhsIdx
  rw [dif_neg (show ¬(0 : Fin S256x1024.rank) ∈ dot_S256x1024_S2048x1024_S256x2048_1_1_0_0_n_n.lhsBatch by decide),
    dif_pos (show (0 : Fin S256x1024.rank) ∈ dot_S256x1024_S2048x1024_S256x2048_1_1_0_0_n_n.lhsNonContracting by decide)]
  rfl

/-- The right operand's row coordinate in the scores' product is the output's column. -/
theorem rhs0_scores (i : S256x2048.Idx) (q : dot_S256x1024_S2048x1024_S256x2048_1_1_0_0_n_n.contr.Idx) :
    (dot_S256x1024_S2048x1024_S256x2048_1_1_0_0_n_n.rhsIdx i q 0).val = (i 1).val := by
  unfold DotDims.rhsIdx
  rw [dif_neg (show ¬(0 : Fin S2048x1024.rank) ∈ dot_S256x1024_S2048x1024_S256x2048_1_1_0_0_n_n.rhsBatch by decide),
    dif_pos (show (0 : Fin S2048x1024.rank) ∈ dot_S256x1024_S2048x1024_S256x2048_1_1_0_0_n_n.rhsNonContracting by decide)]
  rfl

/-- The scores of the tile: the product of the query rows against the key rows, at (i, s), is the inner product of
    query row i with key row s. -/
theorem scores_apply (x0 : Vec Ideal S1x256x1024 .bf16) (x1 : Vec Ideal S1x2048x1024 .bf16)
    (hc0 : S1x256x1024.ShapeCasts S256x1024) (hc1 : S1x2048x1024.ShapeCasts S2048x1024) (i : Fin 256) (s : Fin 2048) :
    matmul (F := Ideal) dot_S256x1024_S2048x1024_S256x2048_1_1_0_0_n_n none
        (shapeCast S256x1024 x0 hc0 : FVec Ideal S256x1024 .bf16) (shapeCast S2048x1024 x1 hc1 : FVec Ideal S2048x1024 .bf16)
        (constant S256x2048 .f32 0x00000000#32) (ix2 i s)
      = tileScore x0 x1 i s := by
  refine (Cert.MatmulNT.matmul_zero_nt_ix2 dot_S256x1024_S2048x1024_S256x2048_1_1_0_0_n_n rfl rfl rfl rfl
    lhs0_scores rhs0_scores _ _ i s).trans ?_
  unfold tileScore
  refine Finset.sum_congr rfl fun e _ => ?_
  rw [shapeCast_1ab_ab_apply, shapeCast_1ab_ab_apply]

/-- The attention weights of the tile at (i, s): the softmax of the score row i, at s. -/
theorem pay1_apply (x0 : Vec Ideal S1x256x1024 .bf16) (x1 : Vec Ideal S1x2048x1024 .bf16) (i : Fin 256) (s : Fin 2048) :
    k1_pay1 (F := Ideal) x0 x1 (ix2 i s) = softmaxRow (fun s' => tileScore x0 x1 i s') s := by
  unfold k1_pay1
  refine (softmax_block _ _ _ _ _ _ _ i s).trans ?_
  refine congrArg (fun r : Fin 2048 → EReal => softmaxRow r s) (funext fun s' => ?_)
  exact scores_apply x0 x1 _ _ i s'

/-- The same weights viewed with a unit leading axis. -/
theorem pay2_apply (x0 : Vec Ideal S1x256x1024 .bf16) (x1 : Vec Ideal S1x2048x1024 .bf16) (u : Fin 1) (i : Fin 256)
    (s : Fin 2048) :
    k1_pay2 (F := Ideal) x0 x1 (ix3 u i s) = softmaxRow (fun s' => tileScore x0 x1 i s') s := by
  unfold k1_pay2
  refine (shapeCast_ab_1ab_apply _ _ u i s).trans ?_
  exact pay1_apply x0 x1 i s

/-- The left operand's row coordinate in the output projection's product is the output's row. -/
theorem lhs0_out (i : S256x1024.Idx) (q : dot_S256x1024_S1024x1024_S256x1024_1_1_0_0_n_n.contr.Idx) :
    (dot_S256x1024_S1024x1024_S256x1024_1_1_0_0_n_n.lhsIdx i q 0).val = (i 0).val := by
  unfold DotDims.lhsIdx
  rw [dif_neg (show ¬(0 : Fin S256x1024.rank) ∈ dot_S256x1024_S1024x1024_S256x1024_1_1_0_0_n_n.lhsBatch by decide),
    dif_pos (show (0 : Fin S256x1024.rank) ∈ dot_S256x1024_S1024x1024_S256x1024_1_1_0_0_n_n.lhsNonContracting by decide)]
  rfl

/-- The right operand's row coordinate in the output projection's product is the output's column. -/
theorem rhs0_out (i : S256x1024.Idx) (q : dot_S256x1024_S1024x1024_S256x1024_1_1_0_0_n_n.contr.Idx) :
    (dot_S256x1024_S1024x1024_S256x1024_1_1_0_0_n_n.rhsIdx i q 0).val = (i 1).val := by
  unfold DotDims.rhsIdx
  rw [dif_neg (show ¬(0 : Fin S1024x1024.rank) ∈ dot_S256x1024_S1024x1024_S256x1024_1_1_0_0_n_n.rhsBatch by decide),
    dif_pos (show (0 : Fin S1024x1024.rank) ∈ dot_S256x1024_S1024x1024_S256x1024_1_1_0_0_n_n.rhsNonContracting by decide)]
  rfl

/-- The weighted values of the tile: the softmax weights of row i against column f of the values. -/
theorem attn_apply (x0 : Vec Ideal S1x256x1024 .bf16) (x1 : Vec Ideal S1x2048x1024 .bf16)
    (x2 : Vec Ideal S1x2048x1024 .bf16) (hlt : FTy.bits .bf16 < FTy.bits .f32)
    (hc : S1x2048x1024.ShapeCasts S2048x1024) (i : Fin 256) (f : Fin 1024) :
    matmul (F := Ideal) dot_S256x2048_S2048x1024_S256x1024_1_0_0_1_n_n none
        (truncf .bf16 (k1_pay1 (F := Ideal) x0 x1) hlt : FVec Ideal S256x2048 .bf16)
        (shapeCast S2048x1024 x2 hc : FVec Ideal S2048x1024 .bf16) (constant S256x1024 .f32 0x00000000#32) (ix2 i f)
      = ∑ s : Fin 2048, softmaxRow (fun s' => tileScore x0 x1 i s') s * x2 (ix3 (0 : Fin 1) s f) := by
  refine (Cert.MatmulNN.matmul_zero_apply dot_S256x2048_S2048x1024_S256x1024_1_0_0_1_n_n rfl none _ _ i f).trans ?_
  refine Finset.sum_congr rfl fun s _ => ?_
  rw [shapeCast_1ab_ab_apply]
  refine congrArg (· * x2 (ix3 (0 : Fin 1) s f)) ?_
  exact (truncf_apply (ψ := .bf16) (k1_pay1 (F := Ideal) x0 x1) hlt (ix2 i s)).trans (pay1_apply x0 x1 i s)

/-- The projected output of the tile at (i, g): the weights against the values, then against row g of the output
    weight. -/
theorem pay3_apply (x0 : Vec Ideal S1x256x1024 .bf16) (x1 : Vec Ideal S1x2048x1024 .bf16)
    (x2 : Vec Ideal S1x2048x1024 .bf16) (x3 : Vec Ideal S1024x1024 .bf16) (u : Fin 1) (i : Fin 256) (g : Fin 1024) :
    k1_pay3 (F := Ideal) x0 x1 x2 x3 (ix3 u i g)
      = ∑ f : Fin 1024, (∑ s : Fin 2048, softmaxRow (fun s' => tileScore x0 x1 i s') s * x2 (ix3 (0 : Fin 1) s f))
          * x3 (ix2 g f) := by
  unfold k1_pay3
  refine (shapeCast_ab_1ab_apply _ _ u i g).trans ?_
  refine (Cert.MatmulNT.matmul_zero_nt_ix2 dot_S256x1024_S1024x1024_S256x1024_1_1_0_0_n_n rfl rfl rfl rfl
    lhs0_out rhs0_out _ _ i g).trans ?_
  refine Finset.sum_congr rfl fun f _ => ?_
  rw [shapeCast_self]
  refine congrArg (· * x3 (ix2 g f)) ?_
  exact (truncf_apply (ψ := .bf16) _ bitsLt_bf16_f32 (ix2 i f)).trans (attn_apply x0 x1 x2 _ _ i f)

end Cert.AttnBody

end
-- ==== Proof.AttnFinal.lean ====
/-
  The attention kernel's two output arrays as whole-array functions of the arrays the region is entered with.
  Point (b, τ) of the 4 × 8 grid stages query rows 256 τ … 256 τ + 255 of batch b, the batch's whole key and value
  slabs and the whole output weight, and writes back rows 256 τ … 256 τ + 255 of batch b of both outputs; the 32 blocks
  tile each output array. So the weights array is the row softmax of the scores of the region's query and key arrays,
  and the output array the weights applied to the values and then projected.
-/
import proofs.«139281_j35192962023831_2_alg».proof.Proof.Gen.KernelIdeal.Frame
import proofs.«139281_j35192962023831_2_alg».proof.Proof.Spec
import Idealize.ShloMosaic.Lib.Pipeline.Value
import Idealize.ShloMosaic.Lib.ValueIdx
import proofs.«139281_j35192962023831_2_alg».proof.Proof.AttnBody

noncomputable section

namespace Cert.AttnFinal

open Cert.KernelIdeal Cert.KernelIdeal.Gen Idealize.ShloMosaic Idealize.ShloMosaic.TcCoe Idealize.SL.Sem
open Idealize.ShloMosaic.ValueIdx Cert.Attn Cert.AttnBody
open Idealize.ShloMosaic.Pipeline (Dat)

variable [Cert.KernelIdeal.Facts]
variable (V : (c : Dev nD) → (b : Ref sig .tc) → Buf (Elt Ideal) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl

/-- The index maps over the 4 × 8 grid: the query tile and both outputs move together over (batch, row tile); the key
    and value operands are the batch's whole [2048, 1024] slab; the output weight is staged whole. -/
theorem idx_facts : ∀ t : Fin cfg1.N, win1_0.index t = win1_5.index t ∧ win1_4.index t = win1_5.index t
    ∧ win1_1.index t (0 : Fin 3) = win1_5.index t (0 : Fin 3) ∧ win1_1.index t (1 : Fin 3) = 0 ∧ win1_1.index t (2 : Fin 3) = 0
    ∧ win1_2.index t (0 : Fin 3) = win1_5.index t (0 : Fin 3) ∧ win1_2.index t (1 : Fin 3) = 0 ∧ win1_2.index t (2 : Fin 3) = 0
    ∧ win1_3.index t (0 : Fin 2) = 0 ∧ win1_3.index t (1 : Fin 2) = 0
    ∧ win1_5.index t (0 : Fin 3) ≤ 3 ∧ win1_5.index t (1 : Fin 3) ≤ 7 ∧ win1_5.index t (2 : Fin 3) = 0 :=
  (by decide +kernel : ∀ t : Fin grid1.N, _)

/-- Every (batch, row tile) pair is some point's. -/
theorem idx_onto : ∀ (q0 : Fin 4) (q1 : Fin 8), ∃ t : Fin cfg1.N, win1_5.index t = ![q0.val, q1.val, 0] :=
  (by decide +kernel : ∀ (q0 : Fin 4) (q1 : Fin 8), ∃ t : Fin grid1.N, win1_5.index t = ![q0.val, q1.val, 0])

/-- An array function read at an index whose coordinates are known. -/
theorem wgtArr_at (qa ka : SHd.Idx → EReal) (j : SWt.Idx) (b : Fin 4) (k s : Fin 2048)
    (h0 : (j 0).val = b.val) (h1 : (j 1).val = k.val) (h2 : (j 2).val = s.val) : wgtArr qa ka j = wgt qa ka b k s := by
  have e : j = ix3 b k s := funext fun a => Fin.ext (by
    match a with
    | ⟨0, _⟩ => exact h0
    | ⟨1, _⟩ => exact h1
    | ⟨2, _⟩ => exact h2)
  rw [e]; rfl

theorem outbArr_at (qa ka va : SHd.Idx → EReal) (wo : SWo.Idx → EReal) (j : SHd.Idx) (b : Fin 4) (k : Fin 2048) (g : Fin 1024)
    (h0 : (j 0).val = b.val) (h1 : (j 1).val = k.val) (h2 : (j 2).val = g.val) : outbArr qa ka va wo j = outb qa ka va wo b k g := by
  have e : j = ix3 b k g := funext fun a => Fin.ext (by
    match a with
    | ⟨0, _⟩ => exact h0
    | ⟨1, _⟩ => exact h1
    | ⟨2, _⟩ => exact h2)
  rw [e]; rfl

/-- One point, over variables: if the staged query tile holds rows r0 … r0 + 255 of batch b of qa and the staged key
    slab is batch b of ka, the tile's score row i is the score row (b, r0 + i). -/
theorem point_score (qa ka : SHd.Idx → EReal) (x0 : Vec Ideal S1x256x1024 .bf16) (x1 : Vec Ideal S1x2048x1024 .bf16)
    (b : Fin 4) (r0 : Nat)
    (h0 : ∀ (i : Fin 256) (e : Fin 1024) (k : Fin 2048), k.val = r0 + i.val → x0 (ix3 (0 : Fin 1) i e) = qa (ix3 b k e))
    (h1 : ∀ (s : Fin 2048) (e : Fin 1024), x1 (ix3 (0 : Fin 1) s e) = ka (ix3 b s e))
    (i : Fin 256) (k : Fin 2048) (hk : k.val = r0 + i.val) :
    (fun s' => tileScore x0 x1 i s') = fun s' => score qa ka b k s' := by
  funext s'
  unfold tileScore score
  exact Finset.sum_congr rfl fun e _ => by rw [h0 i e k hk, h1]

/-- … so the tile's weights row is the softmax of that score row. -/
theorem point_w (qa ka : SHd.Idx → EReal) (x0 : Vec Ideal S1x256x1024 .bf16) (x1 : Vec Ideal S1x2048x1024 .bf16)
    (b : Fin 4) (r0 : Nat)
    (h0 : ∀ (i : Fin 256) (e : Fin 1024) (k : Fin 2048), k.val = r0 + i.val → x0 (ix3 (0 : Fin 1) i e) = qa (ix3 b k e))
    (h1 : ∀ (s : Fin 2048) (e : Fin 1024), x1 (ix3 (0 : Fin 1) s e) = ka (ix3 b s e))
    (i : Fin 256) (s : Fin 2048) (k : Fin 2048) (hk : k.val = r0 + i.val) :
    softmaxRow (fun s' => tileScore x0 x1 i s') s = wgt qa ka b k s := by
  unfold wgt
  rw [point_score qa ka x0 x1 b r0 h0 h1 i k hk]

/-- … and, with the value slab batch b of va and the staged weight wo, the tile's output row is the projected output. -/
theorem point_o (qa ka va : SHd.Idx → EReal) (wo : SWo.Idx → EReal) (x0 : Vec Ideal S1x256x1024 .bf16) (x1 x2 : Vec Ideal S1x2048x1024 .bf16)
    (x3 : Vec Ideal S1024x1024 .bf16) (b : Fin 4) (r0 : Nat)
    (h0 : ∀ (i : Fin 256) (e : Fin 1024) (k : Fin 2048), k.val = r0 + i.val → x0 (ix3 (0 : Fin 1) i e) = qa (ix3 b k e))
    (h1 : ∀ (s : Fin 2048) (e : Fin 1024), x1 (ix3 (0 : Fin 1) s e) = ka (ix3 b s e))
    (h2 : ∀ (s : Fin 2048) (f : Fin 1024), x2 (ix3 (0 : Fin 1) s f) = va (ix3 b s f))
    (h3 : ∀ (g f : Fin 1024), x3 (ix2 g f) = wo (ix2 g f))
    (i : Fin 256) (g : Fin 1024) (k : Fin 2048) (hk : k.val = r0 + i.val) :
    (∑ f : Fin 1024, (∑ s : Fin 2048, softmaxRow (fun s' => tileScore x0 x1 i s') s * x2 (ix3 (0 : Fin 1) s f)) * x3 (ix2 g f))
      = outb qa ka va wo b k g := by
  unfold outb attn
  refine Finset.sum_congr rfl fun f _ => ?_
  rw [h3]
  refine congrArg (· * wo (ix2 g f)) (Finset.sum_congr rfl fun s _ => ?_)
  rw [point_w qa ka x0 x1 b r0 h0 h1 i s k hk, h2]

/-- The staged query tile at point t, read at (0, i, e): the query array at (batch, 256 · tile + i, e). -/
theorem iblk1_0_apply (c : Dev nD) (t : Fin cfg1.N) (i : Fin 256) (e : Fin 1024) (b : Fin 4) (k : Fin 2048)
    (hb : b.val = win1_5.index t (0 : Fin 3)) (hk : k.val = win1_5.index t (1 : Fin 3) * 256 + i.val) :
    iblk1 V c 0 t (ix3 (0 : Fin 1) i e) = V c main_v7 (ix3 b k e) := by
  obtain ⟨e0, -, -, -, -, -, -, -, -, -, -, -, e12⟩ := idx_facts t
  have a0 : win1_0.index t (0 : Fin 3) = win1_5.index t (0 : Fin 3) := congrFun e0 0
  have a1 : win1_0.index t (1 : Fin 3) = win1_5.index t (1 : Fin 3) := congrFun e0 1
  have a2 : win1_0.index t (2 : Fin 3) = win1_5.index t (2 : Fin 3) := congrFun e0 2
  show V c main_v7 (((cfg1.win 0).blk t).view.emb (ix3 (0 : Fin 1) i e)) = V c main_v7 (ix3 b k e)
  refine congrArg (V c main_v7) (funext fun a => Fin.ext ?_)
  match a with
  | ⟨0, _⟩ => show win1_0.index t (0 : Fin 3) * 1 + 1 * 0 = b.val; omega
  | ⟨1, _⟩ => show win1_0.index t (1 : Fin 3) * 256 + 1 * i.val = k.val; omega
  | ⟨2, _⟩ => show win1_0.index t (2 : Fin 3) * 1024 + 1 * e.val = e.val; omega

/-- The staged key slab at point t: the key array's batch. -/
theorem iblk1_1_apply (c : Dev nD) (t : Fin cfg1.N) (s : Fin 2048) (e : Fin 1024) (b : Fin 4)
    (hb : b.val = win1_5.index t (0 : Fin 3)) :
    iblk1 V c 1 t (ix3 (0 : Fin 1) s e) = V c main_v8 (ix3 b s e) := by
  obtain ⟨-, -, e2, e3, e4, -⟩ := idx_facts t
  show V c main_v8 (((cfg1.win 1).blk t).view.emb (ix3 (0 : Fin 1) s e)) = V c main_v8 (ix3 b s e)
  refine congrArg (V c main_v8) (funext fun a => Fin.ext ?_)
  match a with
  | ⟨0, _⟩ => show win1_1.index t (0 : Fin 3) * 1 + 1 * 0 = b.val; omega
  | ⟨1, _⟩ => show win1_1.index t (1 : Fin 3) * 2048 + 1 * s.val = s.val; omega
  | ⟨2, _⟩ => show win1_1.index t (2 : Fin 3) * 1024 + 1 * e.val = e.val; omega

/-- The staged value slab at point t: the value array's batch. -/
theorem iblk1_2_apply (c : Dev nD) (t : Fin cfg1.N) (s : Fin 2048) (e : Fin 1024) (b : Fin 4)
    (hb : b.val = win1_5.index t (0 : Fin 3)) :
    iblk1 V c 2 t (ix3 (0 : Fin 1) s e) = V c main_v9 (ix3 b s e) := by
  obtain ⟨-, -, -, -, -, e5, e6, e7, -⟩ := idx_facts t
  show V c main_v9 (((cfg1.win 2).blk t).view.emb (ix3 (0 : Fin 1) s e)) = V c main_v9 (ix3 b s e)
  refine congrArg (V c main_v9) (funext fun a => Fin.ext ?_)
  match a with
  | ⟨0, _⟩ => show win1_2.index t (0 : Fin 3) * 1 + 1 * 0 = b.val; omega
  | ⟨1, _⟩ => show win1_2.index t (1 : Fin 3) * 2048 + 1 * s.val = s.val; omega
  | ⟨2, _⟩ => show win1_2.index t (2 : Fin 3) * 1024 + 1 * e.val = e.val; omega

/-- The staged output weight at any point is the whole weight. -/
theorem iblk1_3_apply (c : Dev nD) (t : Fin cfg1.N) (g f : Fin 1024) :
    iblk1 V c 3 t (ix2 g f) = V c main_v1 (ix2 g f) := by
  obtain ⟨-, -, -, -, -, -, -, -, e8, e9, -⟩ := idx_facts t
  show V c main_v1 (((cfg1.win 3).blk t).view.emb (ix2 g f)) = V c main_v1 (ix2 g f)
  refine congrArg (V c main_v1) (funext fun a => Fin.ext ?_)
  match a with
  | ⟨0, _⟩ => show win1_3.index t (0 : Fin 2) * 1024 + 1 * g.val = g.val; omega
  | ⟨1, _⟩ => show win1_3.index t (1 : Fin 2) * 1024 + 1 * f.val = f.val; omega

/-- What point t writes back to the weights array is block t of the softmax weights of the region's query and key arrays. -/
theorem flushed5_eq (c : Dev nD) (t : Fin cfg1.N) :
    (dat1 V c).flushed 5 t = ((cfg1.win 5).blk t).view.read (Elt Ideal) (wgtArr (V c main_v7) (V c main_v8)) := by
  show (cfg1.win 5).cut (grid1.coords t) ((dat1 V c).after 5 t) = _
  rw [after1_5]
  unfold out1_5
  rw [View.canon_unit_zero hz3]
  simp only [View.ld_unit_zero (S := S1x256x1024) hz3, View.ld_unit_zero (S := S1x2048x1024) hz3]
  obtain ⟨-, -, -, -, -, -, -, -, -, -, e10, e11, e12⟩ := idx_facts t
  refine funext fun (y : S1x256x2048.Idx) => ?_
  obtain ⟨u, i, s, rfl⟩ : ∃ (u : Fin 1) (i : Fin 256) (s : Fin 2048), y = ix3 u i s := ⟨y 0, y 1, y 2, eq_ix3 y⟩
  show k1_pay2 (iblk1 V c 0 t) (iblk1 V c 1 t) (ix3 u i s) = wgtArr (V c main_v7) (V c main_v8) (((cfg1.win 5).blk t).view.emb (ix3 u i s))
  have hu : u.val = 0 := by omega
  refine (pay2_apply _ _ u i s).trans ?_
  refine (point_w (V c main_v7) (V c main_v8) _ _ ⟨win1_5.index t (0 : Fin 3), by omega⟩ (win1_5.index t (1 : Fin 3) * 256)
    (fun i e k hk => iblk1_0_apply V c t i e _ k rfl hk) (fun s e => iblk1_1_apply V c t s e _ rfl) i s
    ⟨win1_5.index t (1 : Fin 3) * 256 + i.val, by have := i.isLt; omega⟩ rfl).trans ?_
  refine (wgtArr_at _ _ _ _ _ _ ?_ ?_ ?_).symm
  · show win1_5.index t (0 : Fin 3) * 1 + 1 * u.val = win1_5.index t (0 : Fin 3); omega
  · show win1_5.index t (1 : Fin 3) * 256 + 1 * i.val = win1_5.index t (1 : Fin 3) * 256 + i.val; omega
  · show win1_5.index t (2 : Fin 3) * 2048 + 1 * s.val = s.val; omega

/-- What point t writes back to the output array is block t of the projected attention output. -/
theorem flushed4_eq (c : Dev nD) (t : Fin cfg1.N) :
    (dat1 V c).flushed 4 t = ((cfg1.win 4).blk t).view.read (Elt Ideal) (outbArr (V c main_v7) (V c main_v8) (V c main_v9) (V c main_v1)) := by
  show (cfg1.win 4).cut (grid1.coords t) ((dat1 V c).after 4 t) = _
  rw [after1_4]
  unfold out1_4
  rw [View.canon_unit_zero hz3]
  simp only [View.ld_unit_zero (S := S1x256x1024) hz3, View.ld_unit_zero (S := S1x2048x1024) hz3, View.ld_unit_zero (S := S1024x1024) hz2]
  obtain ⟨-, e1, -, -, -, -, -, -, -, -, e10, e11, e12⟩ := idx_facts t
  have a0 : win1_4.index t (0 : Fin 3) = win1_5.index t (0 : Fin 3) := congrFun e1 0
  have a1 : win1_4.index t (1 : Fin 3) = win1_5.index t (1 : Fin 3) := congrFun e1 1
  have a2 : win1_4.index t (2 : Fin 3) = win1_5.index t (2 : Fin 3) := congrFun e1 2
  refine funext fun (y : S1x256x1024.Idx) => ?_
  obtain ⟨u, i, g, rfl⟩ : ∃ (u : Fin 1) (i : Fin 256) (g : Fin 1024), y = ix3 u i g := ⟨y 0, y 1, y 2, eq_ix3 y⟩
  show k1_pay3 (iblk1 V c 0 t) (iblk1 V c 1 t) (iblk1 V c 2 t) (iblk1 V c 3 t) (ix3 u i g)
    = outbArr (V c main_v7) (V c main_v8) (V c main_v9) (V c main_v1) (((cfg1.win 4).blk t).view.emb (ix3 u i g))
  have hu : u.val = 0 := by omega
  refine (pay3_apply _ _ _ _ u i g).trans ?_
  refine (point_o (V c main_v7) (V c main_v8) (V c main_v9) (V c main_v1) _ _ _ _ ⟨win1_5.index t (0 : Fin 3), by omega⟩ (win1_5.index t (1 : Fin 3) * 256)
    (fun i e k hk => iblk1_0_apply V c t i e _ k rfl hk) (fun s e => iblk1_1_apply V c t s e _ rfl)
    (fun s f => iblk1_2_apply V c t s f _ rfl) (fun g f => iblk1_3_apply V c t g f) i g
    ⟨win1_5.index t (1 : Fin 3) * 256 + i.val, by have := i.isLt; omega⟩ rfl).trans ?_
  refine (outbArr_at _ _ _ _ _ _ _ _ ?_ ?_ ?_).symm
  · show win1_4.index t (0 : Fin 3) * 1 + 1 * u.val = win1_5.index t (0 : Fin 3); omega
  · show win1_4.index t (1 : Fin 3) * 256 + 1 * i.val = win1_5.index t (1 : Fin 3) * 256 + i.val; omega
  · show win1_4.index t (2 : Fin 3) * 1024 + 1 * g.val = g.val; omega

/-- An index of the weights array is in point t's block iff each coordinate is in the block's range. -/
theorem mem_blk5 (t : Fin cfg1.N) (i : S4x2048x2048.Idx) :
    i ∈ ((cfg1.win 5).blk t).view.set ↔ ∀ a : Fin 3, win1_5.index t a * S1x256x2048.size a ≤ (i a).val ∧ (i a).val < win1_5.index t a * S1x256x2048.size a + S1x256x2048.size a := by
  show i ∈ ((View.whole main_v10_1).slice (win1_5.rect t)).set ↔ _
  rw [View.set_slice_whole, Rect.mem_set_unit]
  exact Iff.rfl

theorem mem_blk4 (t : Fin cfg1.N) (i : S4x2048x1024.Idx) :
    i ∈ ((cfg1.win 4).blk t).view.set ↔ ∀ a : Fin 3, win1_4.index t a * S1x256x1024.size a ≤ (i a).val ∧ (i a).val < win1_4.index t a * S1x256x1024.size a + S1x256x1024.size a := by
  show i ∈ ((View.whole main_v10_0).slice (win1_4.rect t)).set ↔ _
  rw [View.set_slice_whole, Rect.mem_set_unit]
  exact Iff.rfl

/-- Entry (b, r, s) lies in the block of the point (b, r / 256). -/
theorem cover5 (i : S4x2048x2048.Idx) : ∃ t : Fin cfg1.N, (cfg1.win 5).flush t = true ∧ i ∈ ((cfg1.win 5).blk t).view.set := by
  have hi0 : (i 0).val < 4 := (i 0).isLt
  have hi1 : (i 1).val < 2048 := (i 1).isLt
  have hi2 : (i 2).val < 2048 := (i 2).isLt
  obtain ⟨t, ht⟩ := idx_onto ⟨(i 0).val, hi0⟩ ⟨(i 1).val / 256, by omega⟩
  have q0 : win1_5.index t (0 : Fin 3) = (i 0).val := congrFun ht 0
  have q1 : win1_5.index t (1 : Fin 3) = (i 1).val / 256 := congrFun ht 1
  have q2 : win1_5.index t (2 : Fin 3) = 0 := congrFun ht 2
  refine ⟨t, flush1_5 t, ?_⟩
  rw [mem_blk5]
  intro a
  match a with
  | ⟨0, _⟩ => show win1_5.index t (0 : Fin 3) * 1 ≤ (i 0).val ∧ (i 0).val < win1_5.index t (0 : Fin 3) * 1 + 1; omega
  | ⟨1, _⟩ => show win1_5.index t (1 : Fin 3) * 256 ≤ (i 1).val ∧ (i 1).val < win1_5.index t (1 : Fin 3) * 256 + 256; omega
  | ⟨2, _⟩ => show win1_5.index t (2 : Fin 3) * 2048 ≤ (i 2).val ∧ (i 2).val < win1_5.index t (2 : Fin 3) * 2048 + 2048; omega

theorem cover4 (i : S4x2048x1024.Idx) : ∃ t : Fin cfg1.N, (cfg1.win 4).flush t = true ∧ i ∈ ((cfg1.win 4).blk t).view.set := by
  have hi0 : (i 0).val < 4 := (i 0).isLt
  have hi1 : (i 1).val < 2048 := (i 1).isLt
  have hi2 : (i 2).val < 1024 := (i 2).isLt
  obtain ⟨t, ht⟩ := idx_onto ⟨(i 0).val, hi0⟩ ⟨(i 1).val / 256, by omega⟩
  obtain ⟨-, e1, -⟩ := idx_facts t
  have q0 : win1_4.index t (0 : Fin 3) = (i 0).val := (congrFun e1 0).trans (congrFun ht 0)
  have q1 : win1_4.index t (1 : Fin 3) = (i 1).val / 256 := (congrFun e1 1).trans (congrFun ht 1)
  have q2 : win1_4.index t (2 : Fin 3) = 0 := (congrFun e1 2).trans (congrFun ht 2)
  refine ⟨t, flush1_4 t, ?_⟩
  rw [mem_blk4]
  intro a
  match a with
  | ⟨0, _⟩ => show win1_4.index t (0 : Fin 3) * 1 ≤ (i 0).val ∧ (i 0).val < win1_4.index t (0 : Fin 3) * 1 + 1; omega
  | ⟨1, _⟩ => show win1_4.index t (1 : Fin 3) * 256 ≤ (i 1).val ∧ (i 1).val < win1_4.index t (1 : Fin 3) * 256 + 256; omega
  | ⟨2, _⟩ => show win1_4.index t (2 : Fin 3) * 1024 ≤ (i 2).val ∧ (i 2).val < win1_4.index t (2 : Fin 3) * 1024 + 1024; omega

/-- The weights array after the region. -/
theorem final5 (c : Dev nD) : (dat1 V c).arrAt 5 cfg1.N = wgtArr (V c main_v7) (V c main_v8) :=
  (dat1 V c).arrAt_eq_of_cover 5 _ (fun t _ => flushed5_eq V c t) cover5

/-- The batch-first output array after the region. -/
theorem final4 (c : Dev nD) : (dat1 V c).arrAt 4 cfg1.N = outbArr (V c main_v7) (V c main_v8) (V c main_v9) (V c main_v1) :=
  (dat1 V c).arrAt_eq_of_cover 4 _ (fun t _ => flushed4_eq V c t) cover4

end Cert.AttnFinal

end
-- ==== Proof.HostChain.lean ====
/-
  The host operations around the two regions, read off the fold of buffer contents.
  Before the projection region: the weight narrowed to bf16 and the input flattened to [8192, 1024]. Between the
  regions: each projected array reshaped back to [2048, 4, 1024] and transposed to batch-first [4, 2048, 1024]; the
  output weight narrowed. After the attention region: the batch-first output transposed back to [2048, 4, 1024]; the
  weights returned as they are. A region's own arrays end at what its write-backs leave, every other buffer as entered.
-/
import proofs.«139281_j35192962023831_2_alg».proof.Proof.Gen.KernelIdeal.Frame
import Idealize.ShloMosaic.Lib.StableHlo.Run

noncomputable section

namespace Cert.HostChain

open Cert.KernelIdeal Cert.KernelIdeal.Gen
open Idealize.ShloMosaic Idealize.ShloMosaic.TcCoe Idealize.SL.Sem Idealize.ShloMosaic.StableHlo

variable {F : FTy → Type} [FloatOps F]
variable [Cert.KernelIdeal.Facts]
variable (m : (ℓ : Loc nD τ sig) → Buf (Elt F) ℓ) (ρ : Dev nD → PrngReg)

/-- The first result: the attention region's batch-first output, transposed to sequence-first. -/
theorem res_out (c : Dev nD) : W5 m ρ c (Proc.devRef .tc main_v11)
    = transpose S2048x4x1024 [1, 0, 2] (W4 m ρ c (Proc.devRef .tc main_v10_0)) transposes_S4x2048x1024_S2048x4x1024_1_0_2 := by
  show StableHlo.after hostOps2 (W4 m ρ c) (Proc.devRef .tc main_v11) = _
  after_results <;> rfl

/-- The second result: the attention region's weights array, untouched by the last host operation. -/
theorem res_weights (c : Dev nD) : W5 m ρ c (Proc.devRef .tc main_v10_1) = W4 m ρ c (Proc.devRef .tc main_v10_1) := by
  show StableHlo.after hostOps2 (W4 m ρ c) (Proc.devRef .tc main_v10_1) = _
  after_results

/-- The attention region's query operand: the projection region's first output, reshaped and batch-first. -/
theorem entry1_q (c : Dev nD) : V3 m ρ c main_v7
    = transpose S4x2048x1024 [1, 0, 2] (shapeCast S2048x4x1024 (W2 m ρ c (Proc.devRef .tc main_v3_0)) shapeCasts_S8192x1024_S2048x4x1024) transposes_S2048x4x1024_S4x2048x1024_1_0_2 := by
  show StableHlo.after hostOps1 (W2 m ρ c) (Proc.devRef .tc main_v7) = _
  after_results <;> rfl

/-- Its key operand: the second output likewise. -/
theorem entry1_k (c : Dev nD) : V3 m ρ c main_v8
    = transpose S4x2048x1024 [1, 0, 2] (shapeCast S2048x4x1024 (W2 m ρ c (Proc.devRef .tc main_v3_1)) shapeCasts_S8192x1024_S2048x4x1024) transposes_S2048x4x1024_S4x2048x1024_1_0_2 := by
  show StableHlo.after hostOps1 (W2 m ρ c) (Proc.devRef .tc main_v8) = _
  after_results <;> rfl

/-- Its value operand: the third output likewise. -/
theorem entry1_v (c : Dev nD) : V3 m ρ c main_v9
    = transpose S4x2048x1024 [1, 0, 2] (shapeCast S2048x4x1024 (W2 m ρ c (Proc.devRef .tc main_v3_2)) shapeCasts_S8192x1024_S2048x4x1024) transposes_S2048x4x1024_S4x2048x1024_1_0_2 := by
  show StableHlo.after hostOps1 (W2 m ρ c) (Proc.devRef .tc main_v9) = _
  after_results <;> rfl

/-- Its weight operand: the output weight narrowed before the first region, and touched by nothing since. -/
theorem entry1_w (c : Dev nD) : V3 m ρ c main_v1
    = truncf .bf16 (m ((c.tc : Thread nD τ).loc main_arg4)) bitsLt_bf16_f32 := by
  show StableHlo.after hostOps1 (W2 m ρ c) (Proc.devRef .tc main_v1) = _
  after_results
  rw [W2_of_ne m ρ c main_v1 (by decide)]
  show StableHlo.after hostOps0 (W0 m ρ c) (Proc.devRef .tc main_v1) = _
  after_results <;> rfl

/-- The projection region's input operand: the input flattened to [8192, 1024]. -/
theorem entry0_x (c : Dev nD) : V1 m ρ c main_v2
    = shapeCast S8192x1024 (m ((c.tc : Thread nD τ).loc main_arg0)) shapeCasts_S2048x4x1024_S8192x1024 := by
  show StableHlo.after hostOps0 (W0 m ρ c) (Proc.devRef .tc main_v2) = _
  after_results <;> rfl

/-- Its weight operand: the input weight narrowed. -/
theorem entry0_w (c : Dev nD) : V1 m ρ c main_v0
    = truncf .bf16 (m ((c.tc : Thread nD τ).loc main_arg3)) bitsLt_bf16_f32 := by
  show StableHlo.after hostOps0 (W0 m ρ c) (Proc.devRef .tc main_v0) = _
  after_results <;> rfl

end Cert.HostChain

end
-- ==== Proof.Bridge.lean ====
/-
  The kernel program's two results as the specification's arrays of the arguments.
  Flattening [2048, 4, 1024] to [8192, 1024] puts entry (s, b, e) at row 4 s + b; reshaping back and transposing to
  batch-first reads row 4 s + b at (b, s, ·). So the projection region's three outputs, re-laid, are the query, key and
  value arrays of the specification; the attention region's weights are their row softmax, and its output, transposed
  back to sequence-first, the projected attention. Narrowing a weight to bf16 is the identity on the extended reals.
-/
import proofs.«139281_j35192962023831_2_alg».proof.Proof.Gen.KernelIdeal.Frame
import proofs.«139281_j35192962023831_2_alg».proof.Proof.Spec
import proofs.«139281_j35192962023831_2_alg».proof.Proof.ProjFinal
import proofs.«139281_j35192962023831_2_alg».proof.Proof.AttnFinal
import proofs.«139281_j35192962023831_2_alg».proof.Proof.HostChain
import Idealize.ShloMosaic.Lib.Pipeline.Value
import Idealize.ShloMosaic.Lib.ValueIdx

noncomputable section

namespace Cert.Bridge

open Cert.KernelIdeal Cert.KernelIdeal.Gen
open Idealize.ShloMosaic Idealize.ShloMosaic.TcCoe Idealize.SL.Sem
open Idealize.ShloMosaic.ValueIdx Cert.Attn Cert.ProjFinal

variable [Cert.KernelIdeal.Facts]
variable (m : (ℓ : Loc nD τ sig) → Buf (Elt Ideal) ℓ) (ρ : Dev nD → PrngReg)

/-- The flattened input at row 4 s + b is the input at (s, b). -/
theorem flatten_apply (x : S2048x4x1024.Idx → EReal) (h : S2048x4x1024.ShapeCasts S8192x1024) (s : Fin 2048) (b : Fin 4) (e : Fin 1024)
    (r : Fin 8192) (hr : r.val = s.val * 4 + b.val) : shapeCast S8192x1024 x h (ix2 r e) = x (ix3 s b e) :=
  shapeCast_apply x h _ _ (by
    rw [Shape.rowMajor_val_three, Shape.rowMajor_val_two]
    show (s.val * 4 + b.val) * 1024 + e.val = r.val * 1024 + e.val
    rw [hr])

/-- A [8192, 1024] array reshaped to [2048, 4, 1024] and transposed batch-first reads, at (b, s, f), row 4 s + b. -/
theorem relayout_apply (z : S8192x1024.Idx → EReal) (h1 : S8192x1024.ShapeCasts S2048x4x1024)
    (h2 : S2048x4x1024.Transposes [1, 0, 2] S4x2048x1024) (b : Fin 4) (s : Fin 2048) (f : Fin 1024) (r : Fin 8192)
    (hr : r.val = s.val * 4 + b.val) :
    transpose S4x2048x1024 [1, 0, 2] (shapeCast S2048x4x1024 z h1) h2 (ix3 b s f) = z (ix2 r f) := by
  refine (transpose_apply [1, 0, 2] _ h2 (ix3 b s f) (ix3 s b f) (fun a => match a with
    | ⟨0, _⟩ => rfl
    | ⟨1, _⟩ => rfl
    | ⟨2, _⟩ => rfl)).trans ?_
  exact shapeCast_apply z h1 _ _ (by
    rw [Shape.rowMajor_val_three, Shape.rowMajor_val_two]
    show r.val * 1024 + f.val = (s.val * 4 + b.val) * 1024 + f.val
    rw [hr])

/-- Row 4 s + b of the flattened input against a weight row is the input at (s, b) against it. -/
theorem projArr_flat (o : Nat) (ho : o + 1024 ≤ 3072) (x : S2048x4x1024.Idx → EReal) (w : S3072x1024.Idx → EReal)
    (h : S2048x4x1024.ShapeCasts S8192x1024) (hb : FTy.bf16.bits < FTy.f32.bits) (b : Fin 4) (s : Fin 2048) (f : Fin 1024) (r : Fin 8192)
    (hr : r.val = s.val * 4 + b.val) :
    projArr o ho (shapeCast S8192x1024 x h) (truncf (F := Ideal) .bf16 w hb) (ix2 r f) = proj x w s b (wrow o ho f) := by
  unfold projArr proj
  refine Finset.sum_congr rfl fun e _ => ?_
  show shapeCast S8192x1024 x h (ix2 r e) * w (ix2 (wrow o ho f) e) = _
  rw [flatten_apply x h s b e r hr]

/-- The attention region's query operand is the specification's query array. -/
theorem entry_q (c : Dev nD) : V3 m ρ c main_v7
    = qArr (m ((c.tc : Thread nD τ).loc main_arg0)) (m ((c.tc : Thread nD τ).loc main_arg3)) := by
  rw [Cert.HostChain.entry1_q, show W2 m ρ c (Proc.devRef .tc main_v3_0) = (dat0 (V1 m ρ) c).arrAt 2 cfg0.N from W2_arr m ρ c 2,
    final2, Cert.HostChain.entry0_x, Cert.HostChain.entry0_w]
  funext i
  obtain ⟨b, s, f, rfl⟩ : ∃ (b : Fin 4) (s : Fin 2048) (f : Fin 1024), i = ix3 b s f := ⟨i 0, i 1, i 2, eq_ix3 i⟩
  rw [relayout_apply _ _ _ b s f ⟨s.val * 4 + b.val, by have := s.isLt; have := b.isLt; omega⟩ rfl, qArr_ix3]
  unfold qOut
  refine congrArg (· * scale) ?_
  exact projArr_flat 0 (by omega) _ _ _ _ b s f _ rfl

/-- Its key operand is the specification's key array. -/
theorem entry_k (c : Dev nD) : V3 m ρ c main_v8
    = kArr (m ((c.tc : Thread nD τ).loc main_arg0)) (m ((c.tc : Thread nD τ).loc main_arg3)) := by
  rw [Cert.HostChain.entry1_k, show W2 m ρ c (Proc.devRef .tc main_v3_1) = (dat0 (V1 m ρ) c).arrAt 3 cfg0.N from W2_arr m ρ c 3,
    final3, Cert.HostChain.entry0_x, Cert.HostChain.entry0_w]
  funext i
  obtain ⟨b, s, f, rfl⟩ : ∃ (b : Fin 4) (s : Fin 2048) (f : Fin 1024), i = ix3 b s f := ⟨i 0, i 1, i 2, eq_ix3 i⟩
  rw [relayout_apply _ _ _ b s f ⟨s.val * 4 + b.val, by have := s.isLt; have := b.isLt; omega⟩ rfl, kArr_ix3]
  exact projArr_flat 1024 (by omega) _ _ _ _ b s f _ rfl

/-- Its value operand is the specification's value array. -/
theorem entry_v (c : Dev nD) : V3 m ρ c main_v9
    = vArr (m ((c.tc : Thread nD τ).loc main_arg0)) (m ((c.tc : Thread nD τ).loc main_arg3)) := by
  rw [Cert.HostChain.entry1_v, show W2 m ρ c (Proc.devRef .tc main_v3_2) = (dat0 (V1 m ρ) c).arrAt 4 cfg0.N from W2_arr m ρ c 4,
    final4, Cert.HostChain.entry0_x, Cert.HostChain.entry0_w]
  funext i
  obtain ⟨b, s, f, rfl⟩ : ∃ (b : Fin 4) (s : Fin 2048) (f : Fin 1024), i = ix3 b s f := ⟨i 0, i 1, i 2, eq_ix3 i⟩
  rw [relayout_apply _ _ _ b s f ⟨s.val * 4 + b.val, by have := s.isLt; have := b.isLt; omega⟩ rfl, vArr_ix3]
  exact projArr_flat 2048 (by omega) _ _ _ _ b s f _ rfl

/-- Its weight operand is the output weight. -/
theorem entry_w (c : Dev nD) : V3 m ρ c main_v1 = m ((c.tc : Thread nD τ).loc main_arg4) := by
  rw [Cert.HostChain.entry1_w]; rfl

/-- The second result: the softmax weights of the specification's query and key arrays. -/
theorem weights_eq (c : Dev nD) : W5 m ρ c (Proc.devRef .tc main_v10_1)
    = wgtArr (qArr (m ((c.tc : Thread nD τ).loc main_arg0)) (m ((c.tc : Thread nD τ).loc main_arg3)))
        (kArr (m ((c.tc : Thread nD τ).loc main_arg0)) (m ((c.tc : Thread nD τ).loc main_arg3))) := by
  rw [Cert.HostChain.res_weights, show W4 m ρ c (Proc.devRef .tc main_v10_1) = (dat1 (V3 m ρ) c).arrAt 5 cfg1.N from W4_arr m ρ c 5,
    Cert.AttnFinal.final5, entry_q, entry_k]

/-- The first result: the projected attention output, sequence-first. -/
theorem out_eq (c : Dev nD) : W5 m ρ c (Proc.devRef .tc main_v11)
    = outArr (qArr (m ((c.tc : Thread nD τ).loc main_arg0)) (m ((c.tc : Thread nD τ).loc main_arg3)))
        (kArr (m ((c.tc : Thread nD τ).loc main_arg0)) (m ((c.tc : Thread nD τ).loc main_arg3)))
        (vArr (m ((c.tc : Thread nD τ).loc main_arg0)) (m ((c.tc : Thread nD τ).loc main_arg3)))
        (m ((c.tc : Thread nD τ).loc main_arg4)) := by
  rw [Cert.HostChain.res_out, show W4 m ρ c (Proc.devRef .tc main_v10_0) = (dat1 (V3 m ρ) c).arrAt 4 cfg1.N from W4_arr m ρ c 4,
    Cert.AttnFinal.final4, entry_q, entry_k, entry_v, entry_w]
  funext i
  obtain ⟨s, b, g, rfl⟩ : ∃ (s : Fin 2048) (b : Fin 4) (g : Fin 1024), i = ix3 s b g := ⟨i 0, i 1, i 2, eq_ix3 i⟩
  refine (transpose_apply [1, 0, 2] _ _ (ix3 s b g) (ix3 b s g) (fun a => match a with
    | ⟨0, _⟩ => rfl
    | ⟨1, _⟩ => rfl
    | ⟨2, _⟩ => rfl)).trans ?_
  rfl

end Cert.Bridge

end
-- ==== Proof.RefValue.lean ====
/-
  The reference program's two results, read one operation at a time, are the specification's arrays.

  The three projections: an entry of the stacked product x · wᵀ of shape [S, B, 3E], sliced into its three column blocks
  and transposed batch first, is the inner product of x(s, b, ·) with row f, E + f or 2E + f of the weight; the query block
  is then multiplied by the scale word. The scores are the inner products of a query row with the key rows. A row's
  maximum is the fold of max from -∞ over the row (one more maximum with -∞ changes nothing, as the fold is already at
  least -∞); the exponentials of the differences are summed from the word of zero, and the quotient is the row's softmax.
  The weighted sums of the value rows, transposed sequence first and multiplied against the output weight, are the
  output. Every index map of a layout operation is checked coordinate by coordinate at literal extents.
-/
import proofs.«139281_j35192962023831_2_alg».proof.Proof.Gen.ReferenceIdeal.Read
import proofs.«139281_j35192962023831_2_alg».proof.Proof.Spec
import Idealize.ShloMosaic.PureOps.Ideal.Laws
import Idealize.ShloMosaic.Lib.ValueIdx
import Idealize.ShloMosaic.Lib.Pipeline.Value

noncomputable section

namespace Cert.RefValue

open Cert.ReferenceIdeal Cert.ReferenceIdeal.Gen Cert.ReferenceIdeal.Read Cert.Attn Idealize.ShloMosaic Idealize.ShloMosaic.ValueIdx

/-- The scaled, batch-first query stage is the specification's query array. -/
theorem v6_eq (x0 : (⟨S2048x4x1024, .f32⟩ : BufTy).Contents (Elt Ideal)) (x3 : (⟨S3072x1024, .f32⟩ : BufTy).Contents (Elt Ideal)) :
    val_main_v6 (F := Ideal) x0 x3 = qArr x0 x3 := by
  funext i
  obtain ⟨b, s, f, rfl⟩ : ∃ b s f, i = ix3 b s f := ⟨i 0, i 1, i 2, eq_ix3 i⟩
  rw [val_main_v6_apply, val_main_v4_apply, val_main_v1_apply, val_main_v0_apply, val_main_v5_apply, val_main_cst_apply,
    qArr_ix3]
  show (∑ k, _) * _ = _
  unfold proj scale
  refine congrArg (· * _) (Finset.sum_congr rfl fun k _ => ?_)
  refine congrArg₂ (· * ·) (congrArg x0 ?_) (congrArg x3 ?_)
  · exact funext fun a => Fin.ext (by match a with | ⟨0, _⟩ => rfl | ⟨1, _⟩ => rfl | ⟨2, _⟩ => rfl)
  · exact funext fun a => Fin.ext (by
      match a with
      | ⟨0, _⟩ => exact (Nat.zero_add _).symm
      | ⟨1, _⟩ => rfl)

/-- The batch-first key stage is the specification's key array. -/
theorem v7_eq (x0 : (⟨S2048x4x1024, .f32⟩ : BufTy).Contents (Elt Ideal)) (x3 : (⟨S3072x1024, .f32⟩ : BufTy).Contents (Elt Ideal)) :
    val_main_v7 (F := Ideal) x0 x3 = kArr x0 x3 := by
  funext i
  obtain ⟨b, s, f, rfl⟩ : ∃ b s f, i = ix3 b s f := ⟨i 0, i 1, i 2, eq_ix3 i⟩
  rw [val_main_v7_apply, val_main_v2_apply, val_main_v0_apply, kArr_ix3]
  unfold proj
  refine Finset.sum_congr rfl fun k _ => ?_
  refine congrArg₂ (· * ·) (congrArg x0 ?_) (congrArg x3 ?_)
  · exact funext fun a => Fin.ext (by match a with | ⟨0, _⟩ => rfl | ⟨1, _⟩ => rfl | ⟨2, _⟩ => rfl)
  · exact funext fun a => Fin.ext (by match a with | ⟨0, _⟩ => rfl | ⟨1, _⟩ => rfl)

/-- The batch-first value stage is the specification's value array. -/
theorem v8_eq (x0 : (⟨S2048x4x1024, .f32⟩ : BufTy).Contents (Elt Ideal)) (x3 : (⟨S3072x1024, .f32⟩ : BufTy).Contents (Elt Ideal)) :
    val_main_v8 (F := Ideal) x0 x3 = vArr x0 x3 := by
  funext i
  obtain ⟨b, s, f, rfl⟩ : ∃ b s f, i = ix3 b s f := ⟨i 0, i 1, i 2, eq_ix3 i⟩
  rw [val_main_v8_apply, val_main_v3_apply, val_main_v0_apply, vArr_ix3]
  unfold proj
  refine Finset.sum_congr rfl fun k _ => ?_
  refine congrArg₂ (· * ·) (congrArg x0 ?_) (congrArg x3 ?_)
  · exact funext fun a => Fin.ext (by match a with | ⟨0, _⟩ => rfl | ⟨1, _⟩ => rfl | ⟨2, _⟩ => rfl)
  · exact funext fun a => Fin.ext (by match a with | ⟨0, _⟩ => rfl | ⟨1, _⟩ => rfl)

/-- A score entry of the reference: the query row (b, t) against the key row (b, s). -/
theorem v9_ix3 (x0 : (⟨S2048x4x1024, .f32⟩ : BufTy).Contents (Elt Ideal)) (x3 : (⟨S3072x1024, .f32⟩ : BufTy).Contents (Elt Ideal)) (b : Fin 4) (t s : Fin 2048) :
    val_main_v9 (F := Ideal) x0 x3 (ix3 b t s)
      = score (val_main_v6 (F := Ideal) x0 x3) (val_main_v7 (F := Ideal) x0 x3) b t s := by
  rw [val_main_v9_apply]
  unfold score
  refine Finset.sum_congr rfl fun k _ => ?_
  refine congrArg₂ (· * ·) (congrArg _ ?_) (congrArg _ ?_)
  · exact funext fun a => Fin.ext (by match a with | ⟨0, _⟩ => rfl | ⟨1, _⟩ => rfl | ⟨2, _⟩ => rfl)
  · exact funext fun a => Fin.ext (by match a with | ⟨0, _⟩ => rfl | ⟨1, _⟩ => rfl | ⟨2, _⟩ => rfl)

/-- A maximum folded from -∞ is at least -∞, so taking its maximum with -∞ once more changes nothing. -/
theorem max_negInf_fold {n : Nat} (g : Fin n → EReal) :
    max negInf ((Finset.univ : Finset (Fin n)).fold max negInf g) = (Finset.univ : Finset (Fin n)).fold max negInf g :=
  max_eq_right ((Finset.le_fold_max _).2 (Or.inl le_rfl))

/-- The last axis of the score array is the one reduced. -/
theorem red_d2 : S4x2048x2048.Reduces [2] S4x2048 := by decide

/-- The maximum-reduction over the last axis, at row (b, t), is the row's maximum folded from -∞. -/
theorem reduce_max_row (y : (⟨S4x2048x2048, .f32⟩ : BufTy).Contents (Elt Ideal)) (b : Fin 4) (t : Fin 2048) :
    Host.reduce (FloatOps.maximumf (F := Ideal) (φ := .f32)) y (val_main_cst_0 (F := Ideal))
        reducesTo_S4x2048x2048_S4x2048_d2 h_S_ (ix2 b t)
      = rowMax (fun s' : Fin 2048 => y (ix3 b t s')) := by
  refine (Host.reduce_eq_fold_single _ y _ reducesTo_S4x2048x2048_S4x2048_d2 red_d2 h_S_ (ix2 b t)).trans ?_
  unfold rowMax
  show (Finset.univ : Finset (Fin 2048)).fold max negInf (fun k : Fin 2048 => y (red_d2.lift (ix2 b t) k)) = _
  refine congrArg (fun g : Fin 2048 → EReal => (Finset.univ : Finset (Fin 2048)).fold max negInf g)
    (funext fun k => congrArg y ?_)
  exact funext fun a => Fin.ext (by match a with | ⟨0, _⟩ => rfl | ⟨1, _⟩ => rfl | ⟨2, _⟩ => rfl)

/-- The reference's row maximum (the reduction, then one more maximum with -∞) is the row's maximum. -/
theorem v12_ix2 (x0 : (⟨S2048x4x1024, .f32⟩ : BufTy).Contents (Elt Ideal)) (x3 : (⟨S3072x1024, .f32⟩ : BufTy).Contents (Elt Ideal)) (b : Fin 4) (t : Fin 2048) :
    val_main_v12 (F := Ideal) x0 x3 (ix2 b t) = rowMax (fun s' : Fin 2048 => val_main_v9 (F := Ideal) x0 x3 (ix3 b t s')) := by
  rw [val_main_v12_apply, val_main_v11_apply, val_main_cst_1_apply]
  unfold val_main_v10
  rw [reduce_max_row]
  exact max_negInf_fold _

/-- The row maximum broadcast back along the row. -/
theorem v14_ix3 (x0 : (⟨S2048x4x1024, .f32⟩ : BufTy).Contents (Elt Ideal)) (x3 : (⟨S3072x1024, .f32⟩ : BufTy).Contents (Elt Ideal)) (b : Fin 4) (t s : Fin 2048) :
    val_main_v14 (F := Ideal) x0 x3 (ix3 b t s) = val_main_v12 (F := Ideal) x0 x3 (ix2 b t) := by
  rw [val_main_v14_apply, val_main_v13_apply]
  exact congrArg _ (funext fun a => Fin.ext (by match a with | ⟨0, _⟩ => rfl | ⟨1, _⟩ => rfl))

/-- The exponential of a score less its row's maximum. -/
theorem v16_ix3 (x0 : (⟨S2048x4x1024, .f32⟩ : BufTy).Contents (Elt Ideal)) (x3 : (⟨S3072x1024, .f32⟩ : BufTy).Contents (Elt Ideal)) (b : Fin 4) (t s : Fin 2048) :
    val_main_v16 (F := Ideal) x0 x3 (ix3 b t s)
      = Ideal.exp (val_main_v9 (F := Ideal) x0 x3 (ix3 b t s)
          - rowMax (fun s' : Fin 2048 => val_main_v9 (F := Ideal) x0 x3 (ix3 b t s'))) := by
  rw [val_main_v16_apply, val_main_v15_apply, v14_ix3, v12_ix2]
  rfl

/-- The row's sum of exponentials (the add-reduction starts from the float word of zero). -/
theorem v17_ix2 (x0 : (⟨S2048x4x1024, .f32⟩ : BufTy).Contents (Elt Ideal)) (x3 : (⟨S3072x1024, .f32⟩ : BufTy).Contents (Elt Ideal)) (b : Fin 4) (t : Fin 2048) :
    val_main_v17 (F := Ideal) x0 x3 (ix2 b t)
      = ∑ s : Fin 2048, Ideal.exp (val_main_v9 (F := Ideal) x0 x3 (ix3 b t s)
          - rowMax (fun s' : Fin 2048 => val_main_v9 (F := Ideal) x0 x3 (ix3 b t s'))) := by
  rw [val_main_v17_apply, val_main_cst_2_apply]
  refine (congrArg (· + _) (Ideal.ofBits_zero_f32)).trans ?_
  rw [zero_add]
  refine Finset.sum_congr rfl fun k _ => ?_
  refine Eq.trans (congrArg _ ?_) (v16_ix3 x0 x3 b t k)
  exact funext fun a => Fin.ext (by match a with | ⟨0, _⟩ => rfl | ⟨1, _⟩ => rfl | ⟨2, _⟩ => rfl)

/-- The row sum broadcast back along the row. -/
theorem v19_ix3 (x0 : (⟨S2048x4x1024, .f32⟩ : BufTy).Contents (Elt Ideal)) (x3 : (⟨S3072x1024, .f32⟩ : BufTy).Contents (Elt Ideal)) (b : Fin 4) (t s : Fin 2048) :
    val_main_v19 (F := Ideal) x0 x3 (ix3 b t s) = val_main_v17 (F := Ideal) x0 x3 (ix2 b t) := by
  rw [val_main_v19_apply, val_main_v18_apply]
  exact congrArg _ (funext fun a => Fin.ext (by match a with | ⟨0, _⟩ => rfl | ⟨1, _⟩ => rfl))

/-- A weight of the reference is the softmax of its row of scores. -/
theorem v20_ix3 (x0 : (⟨S2048x4x1024, .f32⟩ : BufTy).Contents (Elt Ideal)) (x3 : (⟨S3072x1024, .f32⟩ : BufTy).Contents (Elt Ideal)) (b : Fin 4) (t s : Fin 2048) :
    val_main_v20 (F := Ideal) x0 x3 (ix3 b t s)
      = softmaxRow (fun s' : Fin 2048 => val_main_v9 (F := Ideal) x0 x3 (ix3 b t s')) s := by
  rw [val_main_v20_apply, v16_ix3, v19_ix3, v17_ix2]
  rfl

/-- The reference's weights are the specification's weights of its query and key stages. -/
theorem v20_eq (x0 : (⟨S2048x4x1024, .f32⟩ : BufTy).Contents (Elt Ideal)) (x3 : (⟨S3072x1024, .f32⟩ : BufTy).Contents (Elt Ideal)) :
    val_main_v20 (F := Ideal) x0 x3 = wgtArr (val_main_v6 (F := Ideal) x0 x3) (val_main_v7 (F := Ideal) x0 x3) := by
  funext i
  obtain ⟨b, t, s, rfl⟩ : ∃ b t s, i = ix3 b t s := ⟨i 0, i 1, i 2, eq_ix3 i⟩
  rw [v20_ix3, wgtArr_ix3]
  unfold wgt
  exact congrArg (fun g : Fin 2048 → EReal => softmaxRow g s) (funext fun s' => v9_ix3 x0 x3 b t s')

/-- The reference's attention weights are the specification's weights of the specification's queries and keys. -/
theorem ref_weights (x0 : (⟨S2048x4x1024, .f32⟩ : BufTy).Contents (Elt Ideal)) (x3 : (⟨S3072x1024, .f32⟩ : BufTy).Contents (Elt Ideal)) :
    val_main_v20 (F := Ideal) x0 x3 = wgtArr (qArr x0 x3) (kArr x0 x3) := by
  rw [v20_eq, v6_eq, v7_eq]

/-- The weighted sum of the value rows: attn at (b, t, f). -/
theorem v21_ix3 (x0 : (⟨S2048x4x1024, .f32⟩ : BufTy).Contents (Elt Ideal)) (x3 : (⟨S3072x1024, .f32⟩ : BufTy).Contents (Elt Ideal)) (b : Fin 4) (t : Fin 2048) (f : Fin 1024) :
    val_main_v21 (F := Ideal) x0 x3 (ix3 b t f) = attn (qArr x0 x3) (kArr x0 x3) (vArr x0 x3) b t f := by
  rw [val_main_v21_apply, ref_weights, v8_eq]
  unfold attn
  refine Finset.sum_congr rfl fun k _ => ?_
  refine congrArg₂ (· * ·) (Eq.trans (congrArg _ ?_) (wgtArr_ix3 _ _ b t k)) (congrArg _ ?_)
  · exact funext fun a => Fin.ext (by match a with | ⟨0, _⟩ => rfl | ⟨1, _⟩ => rfl | ⟨2, _⟩ => rfl)
  · exact funext fun a => Fin.ext (by match a with | ⟨0, _⟩ => rfl | ⟨1, _⟩ => rfl | ⟨2, _⟩ => rfl)

/-- The same, sequence first. -/
theorem v22_ix3 (x0 : (⟨S2048x4x1024, .f32⟩ : BufTy).Contents (Elt Ideal)) (x3 : (⟨S3072x1024, .f32⟩ : BufTy).Contents (Elt Ideal)) (t : Fin 2048) (b : Fin 4) (f : Fin 1024) :
    val_main_v22 (F := Ideal) x0 x3 (ix3 t b f) = attn (qArr x0 x3) (kArr x0 x3) (vArr x0 x3) b t f := by
  rw [val_main_v22_apply]
  refine Eq.trans (congrArg _ ?_) (v21_ix3 x0 x3 b t f)
  exact funext fun a => Fin.ext (by match a with | ⟨0, _⟩ => rfl | ⟨1, _⟩ => rfl | ⟨2, _⟩ => rfl)

/-- The reference's output is the specification's output array: the output projection of the weighted value rows,
    sequence first. -/
theorem ref_out (x0 : (⟨S2048x4x1024, .f32⟩ : BufTy).Contents (Elt Ideal)) (x3 : (⟨S3072x1024, .f32⟩ : BufTy).Contents (Elt Ideal)) (x4 : (⟨S1024x1024, .f32⟩ : BufTy).Contents (Elt Ideal)) :
    val_main_v23 (F := Ideal) x0 x3 x4 = outArr (qArr x0 x3) (kArr x0 x3) (vArr x0 x3) x4 := by
  funext i
  obtain ⟨t, b, g, rfl⟩ : ∃ t b g, i = ix3 t b g := ⟨i 0, i 1, i 2, eq_ix3 i⟩
  rw [val_main_v23_apply, outArr_ix3]
  unfold outb
  refine Finset.sum_congr rfl fun k _ => ?_
  refine congrArg₂ (· * ·) (Eq.trans (congrArg _ ?_) (v22_ix3 x0 x3 t b k)) (congrArg x4 ?_)
  · exact funext fun a => Fin.ext (by match a with | ⟨0, _⟩ => rfl | ⟨1, _⟩ => rfl | ⟨2, _⟩ => rfl)
  · exact funext fun a => Fin.ext (by match a with | ⟨0, _⟩ => rfl | ⟨1, _⟩ => rfl)

end Cert.RefValue

end
-- ==== Proof.lean ====
/-
  The certificate: a self-attention layer as two kernels (the q/k/v projection; scores, row softmax, weights · values
  and the output projection) against its plain array reference.

  On the extended reals both programs compute the same expressions in the same order: the three projections are inner
  products of an input row with a weight row (the query one then multiplied by the word of 1/32), the scores inner
  products of query and key rows, each score row a softmax (maximum folded from -∞, exponentials, their sum, the
  quotient), then the weighted sums of the value rows and their inner products with the output weight's rows. What
  differs is layout only: the kernels flatten [S, B, E] to [S·B, E], work on row tiles, and move between
  sequence-first and batch-first by transposes. No algebraic law beyond max(-∞, x) = x and 0 + x = x is used, so the
  precondition (finite inputs) is never opened.

  The frames of the two kernel programs are the generated ones; the reference's frame is its generated run with the
  results dropped. No operation was rewritten by the idealization, so `preserves` is trivial. For `algebraic`, the
  kernel program's run names its two results by the fold of buffer contents through the segments (KernelRun), each
  region's arrays are whole-array functions of its operands (ProjFinal, AttnFinal over ProjBody, AttnBody), the host
  operations between them are re-layouts (HostChain, Bridge), and the reference's stages are the same arrays (RefValue).
-/
import proofs.«139281_j35192962023831_2_alg».proof.Defs
import proofs.«139281_j35192962023831_2_alg».proof.Proof.Gen.Kernel
import proofs.«139281_j35192962023831_2_alg».proof.Proof.Gen.Kernel.Skeleton
import proofs.«139281_j35192962023831_2_alg».proof.Proof.Gen.Kernel.Launch
import proofs.«139281_j35192962023831_2_alg».proof.Proof.Gen.Kernel.Points
import proofs.«139281_j35192962023831_2_alg».proof.Proof.Gen.Kernel.Frame
import proofs.«139281_j35192962023831_2_alg».proof.Proof.Gen.KernelIdeal
import proofs.«139281_j35192962023831_2_alg».proof.Proof.Gen.KernelIdeal.Skeleton
import proofs.«139281_j35192962023831_2_alg».proof.Proof.Gen.KernelIdeal.Launch
import proofs.«139281_j35192962023831_2_alg».proof.Proof.Gen.KernelIdeal.Points
import proofs.«139281_j35192962023831_2_alg».proof.Proof.Gen.KernelIdeal.Frame
import proofs.«139281_j35192962023831_2_alg».proof.Proof.Gen.ReferenceIdeal
import proofs.«139281_j35192962023831_2_alg».proof.Proof.Gen.Pre_finite_inputs
import proofs.«139281_j35192962023831_2_alg».proof.Proof.Gen.ReferenceIdeal.Run
import proofs.«139281_j35192962023831_2_alg».proof.Proof.Gen.ReferenceIdeal.Read
import proofs.«139281_j35192962023831_2_alg».proof.Proof.Spec
import proofs.«139281_j35192962023831_2_alg».proof.Proof.KernelRun
import proofs.«139281_j35192962023831_2_alg».proof.Proof.Bridge
import proofs.«139281_j35192962023831_2_alg».proof.Proof.RefValue
import Idealize.ShloMosaic.Adequacy
import Idealize.ShloMosaic.Init

noncomputable section

namespace Cert.Proof

open Idealize.ShloMosaic Idealize.SL.Sem Cert.Attn

/-- The kernel program terminates, faults nowhere and leaves its arguments as launched. -/
theorem frame_k : Cert.frame_Kernel := fun m ρ _ => Cert.Kernel.Gen.frame m ρ

/-- The same of its idealization. -/
theorem frame_ki : Cert.frame_KernelIdeal := fun m ρ _ => Cert.KernelIdeal.Gen.frame m ρ

/-- The reference: its run, with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Both programs end with the projected attention output and the softmax weights of the specification, as functions
    of arguments that agree. -/
theorem algebraic : Cert.algebraic_KernelIdeal_ReferenceIdeal := by
  intro m ρ m' ρ' _ hagree
  refine ⟨fun c => outArr
      (qArr (m ((c.tc : Thread Cert.KernelIdeal.nD Cert.KernelIdeal.τ).loc Cert.KernelIdeal.main_arg0)) (m ((c.tc : Thread Cert.KernelIdeal.nD Cert.KernelIdeal.τ).loc Cert.KernelIdeal.main_arg3)))
      (kArr (m ((c.tc : Thread Cert.KernelIdeal.nD Cert.KernelIdeal.τ).loc Cert.KernelIdeal.main_arg0)) (m ((c.tc : Thread Cert.KernelIdeal.nD Cert.KernelIdeal.τ).loc Cert.KernelIdeal.main_arg3)))
      (vArr (m ((c.tc : Thread Cert.KernelIdeal.nD Cert.KernelIdeal.τ).loc Cert.KernelIdeal.main_arg0)) (m ((c.tc : Thread Cert.KernelIdeal.nD Cert.KernelIdeal.τ).loc Cert.KernelIdeal.main_arg3)))
      (m ((c.tc : Thread Cert.KernelIdeal.nD Cert.KernelIdeal.τ).loc Cert.KernelIdeal.main_arg4)),
    fun c => wgtArr
      (qArr (m ((c.tc : Thread Cert.KernelIdeal.nD Cert.KernelIdeal.τ).loc Cert.KernelIdeal.main_arg0)) (m ((c.tc : Thread Cert.KernelIdeal.nD Cert.KernelIdeal.τ).loc Cert.KernelIdeal.main_arg3)))
      (kArr (m ((c.tc : Thread Cert.KernelIdeal.nD Cert.KernelIdeal.τ).loc Cert.KernelIdeal.main_arg0)) (m ((c.tc : Thread Cert.KernelIdeal.nD Cert.KernelIdeal.τ).loc Cert.KernelIdeal.main_arg3))),
    ?_, ?_⟩
  · exact (θ_run Cert.KernelIdeal.defs _ _).mono
      (fun r h c => ⟨(h c).1.trans (Cert.Bridge.out_eq m ρ c), (h c).2.1.trans (Cert.Bridge.weights_eq m ρ c), (h c).2.2⟩)
      (Cert.KernelRun.run (F := Ideal) m ρ)
  · refine (θ_run Cert.ReferenceIdeal.defs _ _).mono (fun r h c => ⟨(h c).1.trans ?_, (h c).2.1.trans ?_, (h c).2.2⟩)
      (Cert.ReferenceIdeal.Value.run (F := Ideal) m' ρ')
    · rw [Cert.ReferenceIdeal.Read.val_main_v23_eq, Cert.RefValue.ref_out, (hagree c).1, (hagree c).2.2.2.1, (hagree c).2.2.2.2]
    · rw [Cert.ReferenceIdeal.Read.val_main_v20_eq, Cert.RefValue.ref_weights, (hagree c).1, (hagree c).2.2.2.1]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
